-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x138 : Shape := ⟨2, ![128, 138]⟩
abbrev S138 : Shape := ⟨1, ![138]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x138 : S_.BroadcastsInDim S128x138 (![] : Fin 0 → Fin S128x138.rank)
  reducesTo_S128x138_S_d0_1 : S128x138.ReducesTo [0, 1] S_
  bcast_S_S138 : S_.BroadcastsInDim S138 (![] : Fin 0 → Fin S138.rank)
  reducesTo_S138_S_d0 : S138.ReducesTo [0] S_

variable [Facts]

def fn_part1 {F : FTy → Type} [FloatOps F] (main_arg6 : FVec F S128 .f32) (main_arg7 : FVec F S128x138 .f32) (main_arg8 : FVec F S138 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x138 .f32 := Host.absf main_arg7
  let main_cst_8 : FVec F S_ .f32 := constant S_ .f32 0x7F800000#32
  let main_v25 : FVec F S128x138 .f32 := broadcastInDim S128x138 ![] bcast_S_S128x138 main_cst_8
  let main_v26 : IVec S128x138 1 := cmpf .olt main_v24 main_v25
  let main_c_9 : IVec S_ 1 := constantI S_ 1 1#1
  let main_v27 : IVec S_ 1 := (fun x v => Host.reduce IntOp.andi x v reducesTo_S128x138_S_d0_1 h_S_) main_v26 main_c_9
  let main_v28 : IVec S_ 1 := andi main_v23 main_v27
  let main_v29 : FVec F S138 .f32 := Host.absf main_arg8
  let main_cst_10 : FVec F S_ .f32 := constant S_ .f32 0x7F800000#32
  let main_v30 : FVec F S138 .f32 := broadcastInDim S138 ![] bcast_S_S138 main_cst_10
  let main_v31 : IVec S138 1 := cmpf .olt main_v29 main_v30
  let main_c_11 : IVec S_ 1 := constantI S_ 1 1#1
  let main_v32 : IVec S_ 1 := (fun x v => Host.reduce IntOp.andi x v reducesTo_S138_S_d0 h_S_) main_v31 main_c_11
  let main_v33 : IVec S_ 1 := andi main_v28 main_v32
  main_v33

def fn {F : FTy → Type} [FloatOps F] (main_arg0 : FVec F S50000x128 .f32) (main_arg1 : IVec S2x1600000 32) (main_arg2 : IVec S50000 32) (main_arg3 : FVec F S128x128 .f32) (main_arg4 : FVec F S128 .f32) (main_arg5 : FVec F S128x128 .f32) (main_arg6 : FVec F S128 .f32) (main_arg7 : FVec F S128x138 .f32) (main_arg8 : FVec F S138 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x138 : Shape := ⟨2, ![128, 138]⟩
abbrev S138 : Shape := ⟨1, ![138]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S5000x128 : Shape := ⟨2, ![5000, 128]⟩
abbrev S1x128 : Shape := ⟨2, ![1, 128]⟩
abbrev S1650000x128 : Shape := ⟨2, ![1650000, 128]⟩
abbrev S512 : Shape := ⟨1, ![512]⟩
abbrev S50000x1 : Shape := ⟨2, ![50000, 1]⟩
abbrev S512x128 : Shape := ⟨2, ![512, 128]⟩
abbrev S512x1 : Shape := ⟨2, ![512, 1]⟩
abbrev S512x138 : Shape := ⟨2, ![512, 138]⟩
abbrev S1x138 : Shape := ⟨2, ![1, 138]⟩

abbrev nBuf : Space → Nat
  | .hbm => 117
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x138, .f32⟩
  | .hbm, ⟨8, _⟩ => ⟨S138, .f32⟩
  | .hbm, ⟨9, _⟩ => ⟨S50000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S1x1600000, .i32⟩
  | .hbm, ⟨14, _⟩ => ⟨S1600000, .i32⟩
  | .hbm, ⟨15, _⟩ => ⟨S1650000, .i32⟩
  | .hbm, ⟨16, _⟩ => ⟨S_, .f32⟩
  | .hbm, ⟨17, _⟩ => ⟨S1650000, .f32⟩
  | .hbm, ⟨18, _⟩ => ⟨S_, .f32⟩
  | .hbm, ⟨19, _⟩ => ⟨S50000, .f32⟩
  | .hbm, ⟨20, _⟩ => ⟨S1650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S1650000, .i32⟩
  | .hbm, ⟨32, _⟩ => ⟨S1650000, .i1⟩
  | .hbm, ⟨33, _⟩ => ⟨S_, .i32⟩
  | .hbm, ⟨34, _⟩ => ⟨S1650000, .i32⟩
  | .hbm, ⟨35, _⟩ => ⟨S1650000, .i32⟩
  | .hbm, ⟨36, _⟩ => ⟨S1650000, .i32⟩
  | .hbm, ⟨37, _⟩ => ⟨S1650000x1, .i32⟩
  | .hbm, ⟨38, _⟩ => ⟨S1650000, .f32⟩
  | .hbm, ⟨39, _⟩ => ⟨S_, .i32⟩
  | .hbm, ⟨40, _⟩ => ⟨S1650000, .i32⟩
  | .hbm, ⟨41, _⟩ => ⟨S1650000, .i1⟩
  | .hbm, ⟨42, _⟩ => ⟨S_, .i32⟩
  | .hbm, ⟨43, _⟩ => ⟨S1650000, .i32⟩
  | .hbm, ⟨44, _⟩ => ⟨S1650000, .i32⟩
  | .hbm, ⟨45, _⟩ => ⟨S1650000, .i32⟩
  | .hbm, ⟨46, _⟩ => ⟨S1650000x1, .i32⟩
  | .hbm, ⟨47, _⟩ => ⟨S1650000, .f32⟩
  | .hbm, ⟨48, _⟩ => ⟨S1650000, .f32⟩
  | .hbm, ⟨49, _⟩ => ⟨S_, .f32⟩
  | .hbm, ⟨50, _⟩ => ⟨S128, .f32⟩
  | .hbm, ⟨51, _⟩ => ⟨S50000x128, .f32⟩
  | .hbm, ⟨52, _⟩ => ⟨S_, .i32⟩
  | .hbm, ⟨53, _⟩ => ⟨S1650000, .i32⟩
  | .hbm, ⟨54, _⟩ => ⟨S1650000, .i1⟩
  | .hbm, ⟨55, _⟩ => ⟨S_, .i32⟩
  | .hbm, ⟨56, _⟩ => ⟨S1650000, .i32⟩
  | .hbm, ⟨57, _⟩ => ⟨S1650000, .i32⟩
  | .hbm, ⟨58, _⟩ => ⟨S1650000, .i32⟩
  | .hbm, ⟨59, _⟩ => ⟨S1650000x1, .i32⟩
  | .hbm, ⟨60, _⟩ => ⟨S1650000x128, .f32⟩
  | .hbm, ⟨61, _⟩ => ⟨S1650000x1, .f32⟩
  | .hbm, ⟨62, _⟩ => ⟨S1650000x128, .f32⟩
  | .hbm, ⟨63, _⟩ => ⟨S1650000x128, .f32⟩
  | .hbm, ⟨64, _⟩ => ⟨S_, .f32⟩
  | .hbm, ⟨65, _⟩ => ⟨S50000x128, .f32⟩
  | .hbm, ⟨66, _⟩ => ⟨S1650000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S128, .f32⟩
  | .hbm, ⟨76, _⟩ => ⟨S50000x128, .f32⟩
  | .hbm, ⟨77, _⟩ => ⟨S_, .i32⟩
  | .hbm, ⟨78, _⟩ => ⟨S1650000, .i32⟩
  | .hbm, ⟨79, _⟩ => ⟨S1650000, .i1⟩
  | .hbm, ⟨80, _⟩ => ⟨S_, .i32⟩
  | .hbm, ⟨81, _⟩ => ⟨S1650000, .i32⟩
  | .hbm, ⟨82, _⟩ => ⟨S1650000, .i32⟩
  | .hbm, ⟨83, _⟩ => ⟨S1650000, .i32⟩
  | .hbm, ⟨84, _⟩ => ⟨S1650000x1, .i32⟩
  | .hbm, ⟨85, _⟩ => ⟨S1650000x128, .f32⟩
  | .hbm, ⟨86, _⟩ => ⟨S1650000x1, .f32⟩
  | .hbm, ⟨87, _⟩ => ⟨S1650000x128, .f32⟩
  | .hbm, ⟨88, _⟩ => ⟨S1650000x128, .f32⟩
  | .hbm, ⟨89, _⟩ => ⟨S_, .f32⟩
  | .hbm, ⟨90, _⟩ => ⟨S50000x128, .f32⟩
  | .hbm, ⟨91, _⟩ => ⟨S1650000x1, .i32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S50000x128, .f32⟩
  | .hbm, ⟨98, _⟩ => ⟨S50000x128, .f32⟩
  | .hbm, ⟨99, _⟩ => ⟨S_, .f32⟩
  | .hbm, ⟨100, _⟩ => ⟨S50000, .f32⟩
  | .hbm, ⟨101, _⟩ => ⟨S_, .f32⟩
  | .hbm, ⟨102, _⟩ => ⟨S512, .f32⟩
  | .hbm, ⟨103, _⟩ => ⟨S50000x1, .i32⟩
  | .hbm, ⟨104, _⟩ => ⟨S512, .f32⟩
  | .hbm, ⟨105, _⟩ => ⟨S_, .f32⟩
  | .hbm, ⟨106, _⟩ => ⟨S512x128, .f32⟩
  | .hbm, ⟨107, _⟩ => ⟨S50000x1, .i32⟩
  | .hbm, ⟨108, _⟩ => ⟨S512x128, .f32⟩
  | .hbm, ⟨109, _⟩ => ⟨S_, .f32⟩
  | .hbm, ⟨110, _⟩ => ⟨S_, .f32⟩
  | .hbm, ⟨111, _⟩ => ⟨S512, .f32⟩
  | .hbm, ⟨112, _⟩ => ⟨S512, .f32⟩
  | .hbm, ⟨113, _⟩ => ⟨S512x1, .f32⟩
  | .hbm, ⟨114, _⟩ => ⟨S512x128, .f32⟩
  | .hbm, ⟨115, _⟩ => ⟨S512x128, .f32⟩
  | .hbm, ⟨116, _⟩ => ⟨S512x138, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S512x128, .f32⟩
  | .local _ .vmem, ⟨13, _⟩ => ⟨S128x138, .f32⟩
  | .local _ .vmem, ⟨14, _⟩ => ⟨S138, .f32⟩
  | .local _ .vmem, ⟨15, _⟩ => ⟨S512x138, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call1_cst : Ref sig .tc := ⟨.hbm, 71, rfl⟩
abbrev main_call1_v0 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_c_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_v67 : Ref sig .tc := ⟨.hbm, 98, rfl⟩
abbrev main_cst_14 : Ref sig .tc := ⟨.hbm, 99, rfl⟩
abbrev main_v68 : Ref sig .tc := ⟨.hbm, 100, rfl⟩
abbrev main_cst_15 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_16 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_17 : Ref sig .tc := ⟨.hbm, 109, rfl⟩
abbrev main_call3_v0 : Ref sig .tc := ⟨.hbm, 110, rfl⟩
abbrev main_call3_v1 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc2_sem3_0 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S128x138 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S138 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x138 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S128 : S_.BroadcastsInDim S128 (![] : Fin 0 → Fin S128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  bcast_S_S512 : S_.BroadcastsInDim S512 (![] : Fin 0 → Fin S512.rank)
  bcast_S50000_S50000x1_0 : S50000.BroadcastsInDim S50000x1 (![0] : Fin 1 → Fin S50000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x138_S128x138_0_0 : ∀ a, (![0, 0] : Fin 2 → Nat) a + S128x138.size a ≤ S128x138.size a
  h_S128x138 : 0 < S128x138.numel
  inb_S138_S138_0 : ∀ a, (![0] : Fin 1 → Nat) a + S138.size a ≤ S138.size a
  h_S138 : 0 < S138.numel
  shapeCasts_S138_S1x138 : S138.ShapeCasts S1x138
  broadcasts_S1x138_S512x138 : S1x138.Broadcasts S512x138
  inb_S512x138_S512x138_0_0 : ∀ a, (![0, 0] : Fin 2 → Nat) a + S512x138.size a ≤ S512x138.size a
  h_S512x138 : 0 < S512x138.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  scatter_S512_S50000x1_S50000_n_0_0_1_wf : ScatterDims.WF S512 S50000x1 S50000 [] [0] [0] 1
  scatter_S512x128_S50000x1_S50000x128_1_0_0_1_wf : ScatterDims.WF S512x128 S50000x1 S50000x128 [1] [0] [0] 1
  dot_S512x128_S128x138_S512x138_1_0_0_1_n_n_wf : DotDims.WF S512x128 S128x138 S512x138 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x138.size a ≤ S128x138.size a
  hwx2_1 : ∀ i : grid2.Coords, EltTy.bits .f32 = 32 ∨ (Rect.block (s := S128x138) S128x138.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S138.size a ≤ S138.size a
  hwx2_2 : ∀ i : grid2.Coords, EltTy.bits .f32 = 32 ∨ (Rect.block (s := S138) S138.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S512x138.size a ≤ S512x138.size a
  hwx2_3 : ∀ i : grid2.Coords, EltTy.bits .f32 = 32 ∨ (Rect.block (s := S512x138) S512x138.size (cc2_transform_3 i) (hinb2_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x138_S512x138_1_0_0_1_n_n : DotDims S512x128 S128x138 S512x138 where
  lhsContracting := [1]
  rhsContracting := [0]
  lhsNonContracting := [0]
  rhsNonContracting := [1]
  lhsBatch := []
  rhsBatch := []
  wf := dot_S512x128_S128x138_S512x138_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v78) S512x128.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x138.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S138.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v79) S512x138.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x138 : Shape := ⟨2, ![128, 138]⟩
abbrev S138 : Shape := ⟨1, ![138]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S512 : Shape := ⟨1, ![512]⟩
abbrev S50000x1 : Shape := ⟨2, ![50000, 1]⟩
abbrev S512x128 : Shape := ⟨2, ![512, 128]⟩
abbrev S512x1 : Shape := ⟨2, ![512, 1]⟩
abbrev S512x138 : Shape := ⟨2, ![512, 138]⟩
abbrev S1x138 : Shape := ⟨2, ![1, 138]⟩

abbrev nBuf : Space → Nat
  | .hbm => 116
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x138, .f32⟩
  | .hbm, ⟨8, _⟩ => ⟨S138, .f32⟩
  | .hbm, ⟨9, _⟩ => ⟨S50000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S1x1600000, .i32⟩
  | .hbm, ⟨14, _⟩ => ⟨S1600000, .i32⟩
  | .hbm, ⟨15, _⟩ => ⟨S1650000, .i32⟩
  | .hbm, ⟨16, _⟩ => ⟨S_, .f32⟩
  | .hbm, ⟨17, _⟩ => ⟨S1650000, .f32⟩
  | .hbm, ⟨18, _⟩ => ⟨S_, .f32⟩
  | .hbm, ⟨19, _⟩ => ⟨S50000, .f32⟩
  | .hbm, ⟨20, _⟩ => ⟨S1650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S1650000, .i32⟩
  | .hbm, ⟨32, _⟩ => ⟨S1650000, .i1⟩
  | .hbm, ⟨33, _⟩ => ⟨S_, .i32⟩
  | .hbm, ⟨34, _⟩ => ⟨S1650000, .i32⟩
  | .hbm, ⟨35, _⟩ => ⟨S1650000, .i32⟩
  | .hbm, ⟨36, _⟩ => ⟨S1650000, .i32⟩
  | .hbm, ⟨37, _⟩ => ⟨S1650000x1, .i32⟩
  | .hbm, ⟨38, _⟩ => ⟨S1650000, .f32⟩
  | .hbm, ⟨39, _⟩ => ⟨S_, .i32⟩
  | .hbm, ⟨40, _⟩ => ⟨S1650000, .i32⟩
  | .hbm, ⟨41, _⟩ => ⟨S1650000, .i1⟩
  | .hbm, ⟨42, _⟩ => ⟨S_, .i32⟩
  | .hbm, ⟨43, _⟩ => ⟨S1650000, .i32⟩
  | .hbm, ⟨44, _⟩ => ⟨S1650000, .i32⟩
  | .hbm, ⟨45, _⟩ => ⟨S1650000, .i32⟩
  | .hbm, ⟨46, _⟩ => ⟨S1650000x1, .i32⟩
  | .hbm, ⟨47, _⟩ => ⟨S1650000, .f32⟩
  | .hbm, ⟨48, _⟩ => ⟨S1650000, .f32⟩
  | .hbm, ⟨49, _⟩ => ⟨S50000x128, .f32⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1650000x128, .f32⟩
  | .hbm, ⟨59, _⟩ => ⟨S1650000x1, .f32⟩
  | .hbm, ⟨60, _⟩ => ⟨S1650000x128, .f32⟩
  | .hbm, ⟨61, _⟩ => ⟨S1650000x128, .f32⟩
  | .hbm, ⟨62, _⟩ => ⟨S_, .f32⟩
  | .hbm, ⟨63, _⟩ => ⟨S50000x128, .f32⟩
  | .hbm, ⟨64, _⟩ => ⟨S1650000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S1650000, .i32⟩
  | .hbm, ⟨75, _⟩ => ⟨S1650000, .i1⟩
  | .hbm, ⟨76, _⟩ => ⟨S_, .i32⟩
  | .hbm, ⟨77, _⟩ => ⟨S1650000, .i32⟩
  | .hbm, ⟨78, _⟩ => ⟨S1650000, .i32⟩
  | .hbm, ⟨79, _⟩ => ⟨S1650000, .i32⟩
  | .hbm, ⟨80, _⟩ => ⟨S1650000x1, .i32⟩
  | .hbm, ⟨81, _⟩ => ⟨S1650000x128, .f32⟩
  | .hbm, ⟨82, _⟩ => ⟨S1650000x1, .f32⟩
  | .hbm, ⟨83, _⟩ => ⟨S1650000x128, .f32⟩
  | .hbm, ⟨84, _⟩ => ⟨S1650000x128, .f32⟩
  | .hbm, ⟨85, _⟩ => ⟨S_, .f32⟩
  | .hbm, ⟨86, _⟩ => ⟨S50000x128, .f32⟩
  | .hbm, ⟨87, _⟩ => ⟨S1650000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000, .f32⟩
  | .hbm, ⟨97, _⟩ => ⟨S_, .f32⟩
  | .hbm, ⟨98, _⟩ => ⟨S512, .f32⟩
  | .hbm, ⟨99, _⟩ => ⟨S50000x1, .i32⟩
  | .hbm, ⟨100, _⟩ => ⟨S512, .f32⟩
  | .hbm, ⟨101, _⟩ => ⟨S_, .f32⟩
  | .hbm, ⟨102, _⟩ => ⟨S512x128, .f32⟩
  | .hbm, ⟨103, _⟩ => ⟨S50000x1, .i32⟩
  | .hbm, ⟨104, _⟩ => ⟨S512x128, .f32⟩
  | .hbm, ⟨105, _⟩ => ⟨S_, .f32⟩
  | .hbm, ⟨106, _⟩ => ⟨S_, .f32⟩
  | .hbm, ⟨107, _⟩ => ⟨S512, .f32⟩
  | .hbm, ⟨108, _⟩ => ⟨S512, .f32⟩
  | .hbm, ⟨109, _⟩ => ⟨S512x1, .f32⟩
  | .hbm, ⟨110, _⟩ => ⟨S512x128, .f32⟩
  | .hbm, ⟨111, _⟩ => ⟨S512x128, .f32⟩
  | .hbm, ⟨112, _⟩ => ⟨S512x138, .f32⟩
  | .hbm, ⟨113, _⟩ => ⟨S1x138, .f32⟩
  | .hbm, ⟨114, _⟩ => ⟨S512x138, .f32⟩
  | .hbm, ⟨115, _⟩ => ⟨S512x138, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_cst_12 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_15 : Ref sig .tc := ⟨.hbm, 105, rfl⟩
abbrev main_call3_v0 : Ref sig .tc := ⟨.hbm, 106, rfl⟩
abbrev main_call3_v1 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512 : S_.BroadcastsInDim S512 (![] : Fin 0 → Fin S512.rank)
  bcast_S50000_S50000x1_0 : S50000.BroadcastsInDim S50000x1 (![0] : Fin 1 → Fin S50000x1.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S138_S1x138_1 : S138.BroadcastsInDim S1x138 (![1] : Fin 1 → Fin S1x138.rank)
  bcast_S1x138_S512x138_0_1 : S1x138.BroadcastsInDim S512x138 (![0, 1] : Fin 2 → Fin S512x138.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  scatter_S512_S50000x1_S50000_n_0_0_1_wf : ScatterDims.WF S512 S50000x1 S50000 [] [0] [0] 1
  scatter_S512x128_S50000x1_S50000x128_1_0_0_1_wf : ScatterDims.WF S512x128 S50000x1 S50000x128 [1] [0] [0] 1
  dot_S512x128_S128x138_S512x138_1_0_0_1_n_n_wf : DotDims.WF S512x128 S128x138 S512x138 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x138_S512x138_1_0_0_1_n_n : DotDims S512x128 S128x138 S512x138 where
  lhsContracting := [1]
  rhsContracting := [0]
  lhsNonContracting := [0]
  rhsNonContracting := [1]
  lhsBatch := []
  rhsBatch := []
  wf := dot_S512x128_S128x138_S512x138_1_0_0_1_n_n_wf

class Facts : Prop extends Facts₀ where

variable [Facts]
-- ==== Proof.KernelRun.lean ====
/-
  The idealized kernel's whole run, with the contents every buffer ends at exposed.

  The program is three pipelined regions among stretches of host operations.  Its run is read as a fold of buffer
  contents through the segments: a host stretch replaces each buffer it writes by its operation's value, a region
  replaces each of its output arrays by what its grid points wrote back.  Every execution terminates, without a
  fault, in a state whose every unscoped buffer holds the last contents of that fold; in particular the result
  buffer does, and the arguments hold what they were launched with.
-/
import proofs.«117734_j66958540144770_1_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each unscoped buffer at the last contents of the fold through the segments. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- The result buffer ends at the last region's output array, and the arguments as launched. -/
theorem run_result : θ_run defs (onTc (τ := τ) (main (F := F))) ⟨m, fun _ => 0, ρ⟩ (fun r => ∀ c : Dev nD,
      r.2.mem ((c.tc : Thread nD τ).loc main_v79) = W14 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v79 (by decide)),
      (h c _ (mem_uc main_arg0 (by decide))).trans (W14_main_arg0 m ρ c),
      (h c _ (mem_uc main_arg1 (by decide))).trans (W14_main_arg1 m ρ c),
      (h c _ (mem_uc main_arg2 (by decide))).trans (W14_main_arg2 m ρ c),
      (h c _ (mem_uc main_arg3 (by decide))).trans (W14_main_arg3 m ρ c),
      (h c _ (mem_uc main_arg4 (by decide))).trans (W14_main_arg4 m ρ c),
      (h c _ (mem_uc main_arg5 (by decide))).trans (W14_main_arg5 m ρ c),
      (h c _ (mem_uc main_arg6 (by decide))).trans (W14_main_arg6 m ρ c),
      (h c _ (mem_uc main_arg7 (by decide))).trans (W14_main_arg7 m ρ c),
      (h c _ (mem_uc main_arg8 (by decide))).trans (W14_main_arg8 m ρ c)⟩)
    (run_contents m ρ)

end Cert.KernelIdeal.WholeRun

end
-- ==== Proof.Spec.lean ====
/-
  The graph-convolution network both programs compute, written once as pure functions of arrays.

  Nodes are the 50000 rows of a feature matrix; the 1600000 given edges are extended by one self loop per node, so
  there are 1650000 (source, destination) pairs.  A node's degree counts the pairs that end at it; a pair's weight
  is the product of the inverse square roots of the degrees of its two end points (taken as 0 where a degree is
  not positive).  One layer multiplies the features by a dense weight matrix, sends every source row, scaled by
  its pair's weight, to the destination row (summing what arrives there), adds a bias row and clamps below at zero.
  After two layers the node rows are averaged within each of 512 graphs (a graph with no node divides by one), and
  a last dense product with a bias row gives the 512 by 138 result.

  Only the three dense products are computed differently by the two programs; everything else here is carried
  through the proof as these named functions and never opened.
-/
import proofs.«117734_j66958540144770_1_alg».proof.ReferenceIdeal
import proofs.«117734_j66958540144770_1_alg».proof.Proof.Gen.ReferenceIdeal

noncomputable section

namespace Cert.Gcn

open Idealize.ShloMosaic Cert.ReferenceIdeal Cert.ReferenceIdeal.Gen

variable {F : FTy → Type} [FloatOps F]

/-- Row 0 of the edge list followed by 0, 1, …, 49999: the source of every pair, self loops last. -/
def srcOf (e : (⟨S2x1600000, .i32⟩ : BufTy).Contents (Elt F)) : (⟨S1650000, .i32⟩ : BufTy).Contents (Elt F) :=
  concatenate S1650000 0 [⟨S1600000, (shapeCast _ (extractStridedSlice S1x1600000 ![0, 0] e slices_S2x1600000_S1x1600000_0_0) shapeCasts_S1x1600000_S1600000)⟩, ⟨S50000, (iotaInDim S50000 32 0)⟩] concatenates_S1600000_S50000_S1650000_d0

/-- Row 1 of the edge list followed by 0, 1, …, 49999: the destination of every pair. -/
def dstOf (e : (⟨S2x1600000, .i32⟩ : BufTy).Contents (Elt F)) : (⟨S1650000, .i32⟩ : BufTy).Contents (Elt F) :=
  concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0

/-- A list of node numbers as a column of look-up positions, a negative number counted from the end. -/
def lookup (s : (⟨S1650000, .i32⟩ : BufTy).Contents (Elt F)) : (⟨S1650000x1, .i32⟩ : BufTy).Contents (Elt F) :=
  broadcastInDim S1650000x1 ![0] bcast_S1650000_S1650000x1_0 (select (cmpi .slt s (broadcastInDim S1650000 ![] bcast_S_S1650000 (constantI S_ 32 0#32))) (addi s (broadcastInDim S1650000 ![] bcast_S_S1650000 (constantI S_ 32 50000#32))) s)

/-- The number of pairs ending at each node. -/
def degree (d : (⟨S1650000, .i32⟩ : BufTy).Contents (Elt F)) : (⟨S50000, .f32⟩ : BufTy).Contents (Elt F) :=
  Host.scatterAdd scatter_S50000_S1650000x1_S1650000_n_0_0_1 (broadcastInDim S50000 ![] bcast_S_S50000 (constant S_ .f32 0x00000000#32)) (broadcastInDim S1650000x1 ![0] bcast_S1650000_S1650000x1_0 d) (broadcastInDim S1650000 ![] bcast_S_S1650000 (constant S_ .f32 0x3F800000#32))

/-- The inverse square root of each node's degree, 0 where the degree is not positive. -/
def invSqrtDegree (d : (⟨S1650000, .i32⟩ : BufTy).Contents (Elt F)) : (⟨S50000, .f32⟩ : BufTy).Contents (Elt F) :=
  select (cmpf .ogt (degree (F := F) d) (broadcastInDim S50000 ![] bcast_S_S50000 (constant (F := F) S_ .f32 0x00000000#32))) (Host.rsqrt (degree (F := F) d)) (broadcastInDim S50000 ![] bcast_S_S50000 (id (constant (F := F) S_ .f32 0x00000000#32)))

/-- The weight of each pair: the product of its two end points' inverse square root degrees. -/
def edgeWeight (s d : (⟨S1650000, .i32⟩ : BufTy).Contents (Elt F)) : (⟨S1650000, .f32⟩ : BufTy).Contents (Elt F) :=
  mulf (Host.gather gather_S50000_S1650000x1_S1650000_n_0_n_n_0_1_1 (invSqrtDegree (F := F) d) (lookup (F := F) s)) (Host.gather gather_S50000_S1650000x1_S1650000_n_0_n_n_0_1_1 (invSqrtDegree (F := F) d) (lookup (F := F) d))

/-- The dense product of the node features with a 128 by 128 weight matrix. -/
def dense (x : (⟨S50000x128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none x w

/-- What a layer does after its dense product: every source row scaled by its pair's weight is summed into
    the destination row, the bias row is added, and the result is clamped below at zero. -/
def propagate (h : (⟨S50000x128, .f32⟩ : BufTy).Contents (Elt F)) (s d : (⟨S1650000, .i32⟩ : BufTy).Contents (Elt F))
    (n : (⟨S1650000, .f32⟩ : BufTy).Contents (Elt F)) (b : (⟨S128, .f32⟩ : BufTy).Contents (Elt F)) : (⟨S50000x128, .f32⟩ : BufTy).Contents (Elt F) :=
  maximumf (addf (Host.scatterAdd scatter_S50000x128_S1650000x1_S1650000x128_1_0_0_1 (broadcastInDim S50000x128 ![] bcast_S_S50000x128 (constant S_ .f32 0x00000000#32)) (broadcastInDim S1650000x1 ![0] bcast_S1650000_S1650000x1_0 d) (mulf (Host.gather gather_S50000x128_S1650000x1_S1650000x128_1_0_n_n_0_1_1128 h (lookup (F := F) s)) (broadcastInDim S1650000x128 ![0, 1] bcast_S1650000x1_S1650000x128_0_1 (broadcastInDim S1650000x1 ![0] bcast_S1650000_S1650000x1_0 n)))) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The mean of the node rows within each graph; a graph with no node divides by one. -/
def meanPool (h : (⟨S50000x128, .f32⟩ : BufTy).Contents (Elt F)) (g : (⟨S50000, .i32⟩ : BufTy).Contents (Elt F)) : (⟨S512x128, .f32⟩ : BufTy).Contents (Elt F) :=
  Host.divf (Host.scatterAdd scatter_S512x128_S50000x1_S50000x128_1_0_0_1 (broadcastInDim S512x128 ![] bcast_S_S512x128 (constant S_ .f32 0x00000000#32)) (broadcastInDim S50000x1 ![0] bcast_S50000_S50000x1_0 g) h) (broadcastInDim S512x128 ![0, 1] bcast_S512x1_S512x128_0_1 (broadcastInDim S512x1 ![0] bcast_S512_S512x1_0 (maximumf (broadcastInDim S512 ![] bcast_S_S512 (id (constant S_ .f32 0x3F800000#32))) (Host.scatterAdd scatter_S512_S50000x1_S50000_n_0_0_1 (broadcastInDim S512 ![] bcast_S_S512 (constant S_ .f32 0x00000000#32)) (broadcastInDim S50000x1 ![0] bcast_S50000_S50000x1_0 g) (broadcastInDim S50000 ![] bcast_S_S50000 (constant S_ .f32 0x3F800000#32))))))

/-- The last dense product, 512 by 128 times 128 by 138, plus its bias row. -/
def readout (p : (⟨S512x128, .f32⟩ : BufTy).Contents (Elt F)) (w : (⟨S128x138, .f32⟩ : BufTy).Contents (Elt F)) (b : (⟨S138, .f32⟩ : BufTy).Contents (Elt F)) : (⟨S512x138, .f32⟩ : BufTy).Contents (Elt F) :=
  addf (Host.dotGeneral dot_S512x128_S128x138_S512x138_1_0_0_1_n_n none p w) (broadcastInDim S512x138 ![0, 1] bcast_S1x138_S512x138_0_1 (broadcastInDim S1x138 ![1] bcast_S138_S1x138_1 b))

/-- The whole network: two layers, the mean over each graph, the read-out. -/
def network (x : (⟨S50000x128, .f32⟩ : BufTy).Contents (Elt F)) (e : (⟨S2x1600000, .i32⟩ : BufTy).Contents (Elt F)) (g : (⟨S50000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (wl : (⟨S128x138, .f32⟩ : BufTy).Contents (Elt F)) (bl : (⟨S138, .f32⟩ : BufTy).Contents (Elt F)) : (⟨S512x138, .f32⟩ : BufTy).Contents (Elt F) :=
  readout (F := F) (meanPool (F := F) (propagate (F := F) (dense (F := F) (propagate (F := F) (dense (F := F) x w1) (srcOf (F := F) e) (dstOf (F := F) e) (edgeWeight (F := F) (srcOf (F := F) e) (dstOf (F := F) e)) b1) w2) (srcOf (F := F) e) (dstOf (F := F) e) (edgeWeight (F := F) (srcOf (F := F) e) (dstOf (F := F) e)) b2) g) wl bl

end Cert.Gcn

end
-- ==== Proof.LibStretch.lean ====
/-
  Two general facts about a straight line of array operations run from some contents of the buffers.
  A line cut in two runs its second part from what its first part leaves — so a long program is read stretch by stretch,
  each stretch for arbitrary starting contents.  And contents carried to a typed reference's buffer type and back along
  the same type equation are unchanged — so the operations of a module-local function (which carry every value through
  its typed reference) compose exactly as a program's own operations do, with no transport left between them.
-/
import Idealize.ShloMosaic.Lib.StableHlo.Run

namespace Cert.LibStretch

open Idealize.ShloMosaic Idealize.ShloMosaic.StableHlo

/-- Running `l₁ ++ l₂` from `V` is running `l₂` from what `l₁` leaves. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_append l₁ l₂]

/-- To the buffer's type and back is the identity. -/
theorem ofBuf_toBuf {sig : RefSig} {Val : EltTy → Type} {T : BufTy} (x : TRef sig T) (v : T.Contents Val) :
    x.ofBuf (x.toBuf v) = v := by
  rcases x with ⟨r, h, h2, h3⟩
  subst h
  rfl

/-- From the buffer's type and back likewise. -/
theorem toBuf_ofBuf {sig : RefSig} {Val : EltTy → Type} {T : BufTy} (x : TRef sig T) (v : x.ref.ty.Contents Val) :
    x.toBuf (x.ofBuf v) = v := by
  rcases x with ⟨r, h, h2, h3⟩
  subst h
  rfl

end Cert.LibStretch
-- ==== Proof.KernelStretch0.lean ====
/-
  The host operations before the first dense product, read for any contents of the buffers they start from:
  they build the source and destination lists of the pairs (given edges, then one self loop per node), the pair
  weights from the node degrees, and a bias row of zeros; they write no argument array.
-/
import proofs.«117734_j66958540144770_1_alg».proof.Proof.Gen.KernelIdeal.Launch
import proofs.«117734_j66958540144770_1_alg».proof.Proof.Spec
import proofs.«117734_j66958540144770_1_alg».proof.Proof.LibStretch
import Idealize.ShloMosaic.Lib.StableHlo.Run

set_option maxRecDepth 16384

noncomputable section

namespace Cert.KernelIdeal.Stretch0

open Idealize.ShloMosaic Idealize.ShloMosaic.TcCoe Idealize.SL.Sem Idealize.ShloMosaic.StableHlo
open Cert.KernelIdeal Cert.KernelIdeal.Gen

variable {F : FTy → Type} [FloatOps F]

/-- The operations before the first region, as one line. -/
abbrev line0 : List (HloOp τ sig (Elt F)) := hostOps0 ++ hostOps0_1 ++ hostOps0_2

/-- The source list. -/
theorem sources (V : Valuation τ sig (Elt F)) :
    after (line0 (F := F)) V (Proc.devRef .tc main_v3) = Cert.Gcn.srcOf (F := F) (V (Proc.devRef .tc main_arg1)) := by
  simp only [line0, hostOps0, hostOps0_1, hostOps0_2, List.cons_append, List.nil_append]
  after_results_simp
  try simp only [Cert.LibStretch.ofBuf_toBuf, Cert.LibStretch.toBuf_ofBuf]
  try rfl

/-- The destination list. -/
theorem destinations (V : Valuation τ sig (Elt F)) :
    after (line0 (F := F)) V (Proc.devRef .tc main_v6) = Cert.Gcn.dstOf (F := F) (V (Proc.devRef .tc main_arg1)) := by
  simp only [line0, hostOps0, hostOps0_1, hostOps0_2, List.cons_append, List.nil_append]
  after_results_simp
  try simp only [Cert.LibStretch.ofBuf_toBuf, Cert.LibStretch.toBuf_ofBuf]
  try rfl

/-- The pair weights. -/
theorem weights (V : Valuation τ sig (Elt F)) :
    after (line0 (F := F)) V (Proc.devRef .tc main_v29) = Cert.Gcn.edgeWeight (F := F) (Cert.Gcn.srcOf (F := F) (V (Proc.devRef .tc main_arg1))) (Cert.Gcn.dstOf (F := F) (V (Proc.devRef .tc main_arg1))) := by
  simp only [line0, hostOps0, hostOps0_1, hostOps0_2, List.cons_append, List.nil_append]
  after_results_simp
  try simp only [Cert.LibStretch.ofBuf_toBuf, Cert.LibStretch.toBuf_ofBuf]
  try rfl

/-- The first region's bias row: zeros. -/
theorem zeroBias (V : Valuation τ sig (Elt F)) :
    after (line0 (F := F)) V (Proc.devRef .tc main_v30) = broadcastInDim S128 ![] bcast_S_S128 (constant (F := F) S_ .f32 0x00000000#32) := by
  simp only [line0, hostOps0, hostOps0_1, hostOps0_2, List.cons_append, List.nil_append]
  after_results_simp
  try simp only [Cert.LibStretch.ofBuf_toBuf, Cert.LibStretch.toBuf_ofBuf]
  try rfl

/-- Argument 0 is not written. -/
theorem kept_arg0 (V : Valuation τ sig (Elt F)) :
    after (line0 (F := F)) V (Proc.devRef .tc main_arg0) = V (Proc.devRef .tc main_arg0) := by
  simp only [line0, hostOps0, hostOps0_1, hostOps0_2, List.cons_append, List.nil_append]
  after_results_simp
  try simp only [Cert.LibStretch.ofBuf_toBuf, Cert.LibStretch.toBuf_ofBuf]
  try rfl

/-- Argument 1 is not written. -/
theorem kept_arg1 (V : Valuation τ sig (Elt F)) :
    after (line0 (F := F)) V (Proc.devRef .tc main_arg1) = V (Proc.devRef .tc main_arg1) := by
  simp only [line0, hostOps0, hostOps0_1, hostOps0_2, List.cons_append, List.nil_append]
  after_results_simp
  try simp only [Cert.LibStretch.ofBuf_toBuf, Cert.LibStretch.toBuf_ofBuf]
  try rfl

/-- Argument 2 is not written. -/
theorem kept_arg2 (V : Valuation τ sig (Elt F)) :
    after (line0 (F := F)) V (Proc.devRef .tc main_arg2) = V (Proc.devRef .tc main_arg2) := by
  simp only [line0, hostOps0, hostOps0_1, hostOps0_2, List.cons_append, List.nil_append]
  after_results_simp
  try simp only [Cert.LibStretch.ofBuf_toBuf, Cert.LibStretch.toBuf_ofBuf]
  try rfl

/-- Argument 3 is not written. -/
theorem kept_arg3 (V : Valuation τ sig (Elt F)) :
    after (line0 (F := F)) V (Proc.devRef .tc main_arg3) = V (Proc.devRef .tc main_arg3) := by
  simp only [line0, hostOps0, hostOps0_1, hostOps0_2, List.cons_append, List.nil_append]
  after_results_simp
  try simp only [Cert.LibStretch.ofBuf_toBuf, Cert.LibStretch.toBuf_ofBuf]
  try rfl

/-- Argument 4 is not written. -/
theorem kept_arg4 (V : Valuation τ sig (Elt F)) :
    after (line0 (F := F)) V (Proc.devRef .tc main_arg4) = V (Proc.devRef .tc main_arg4) := by
  simp only [line0, hostOps0, hostOps0_1, hostOps0_2, List.cons_append, List.nil_append]
  after_results_simp
  try simp only [Cert.LibStretch.ofBuf_toBuf, Cert.LibStretch.toBuf_ofBuf]
  try rfl

/-- Argument 5 is not written. -/
theorem kept_arg5 (V : Valuation τ sig (Elt F)) :
    after (line0 (F := F)) V (Proc.devRef .tc main_arg5) = V (Proc.devRef .tc main_arg5) := by
  simp only [line0, hostOps0, hostOps0_1, hostOps0_2, List.cons_append, List.nil_append]
  after_results_simp
  try simp only [Cert.LibStretch.ofBuf_toBuf, Cert.LibStretch.toBuf_ofBuf]
  try rfl

/-- Argument 6 is not written. -/
theorem kept_arg6 (V : Valuation τ sig (Elt F)) :
    after (line0 (F := F)) V (Proc.devRef .tc main_arg6) = V (Proc.devRef .tc main_arg6) := by
  simp only [line0, hostOps0, hostOps0_1, hostOps0_2, List.cons_append, List.nil_append]
  after_results_simp
  try simp only [Cert.LibStretch.ofBuf_toBuf, Cert.LibStretch.toBuf_ofBuf]
  try rfl

/-- Argument 7 is not written. -/
theorem kept_arg7 (V : Valuation τ sig (Elt F)) :
    after (line0 (F := F)) V (Proc.devRef .tc main_arg7) = V (Proc.devRef .tc main_arg7) := by
  simp only [line0, hostOps0, hostOps0_1, hostOps0_2, List.cons_append, List.nil_append]
  after_results_simp
  try simp only [Cert.LibStretch.ofBuf_toBuf, Cert.LibStretch.toBuf_ofBuf]
  try rfl

/-- Argument 8 is not written. -/
theorem kept_arg8 (V : Valuation τ sig (Elt F)) :
    after (line0 (F := F)) V (Proc.devRef .tc main_arg8) = V (Proc.devRef .tc main_arg8) := by
  simp only [line0, hostOps0, hostOps0_1, hostOps0_2, List.cons_append, List.nil_append]
  after_results_simp
  try simp only [Cert.LibStretch.ofBuf_toBuf, Cert.LibStretch.toBuf_ofBuf]
  try rfl

end Cert.KernelIdeal.Stretch0

end
-- ==== Proof.KernelStretch1.lean ====
/-
  The host operations between the first and the second dense product, read for any contents of the buffers they
  start from: they finish the first layer (rows sent along the pairs with their weights and summed at the
  destinations, the bias row added, clamped below at zero) and make the second region's bias row of zeros.
-/
import proofs.«117734_j66958540144770_1_alg».proof.Proof.Gen.KernelIdeal.Launch
import proofs.«117734_j66958540144770_1_alg».proof.Proof.Spec
import proofs.«117734_j66958540144770_1_alg».proof.Proof.LibStretch
import Idealize.ShloMosaic.Lib.StableHlo.Run

set_option maxRecDepth 16384

noncomputable section

namespace Cert.KernelIdeal.Stretch1

open Idealize.ShloMosaic Idealize.ShloMosaic.TcCoe Idealize.SL.Sem Idealize.ShloMosaic.StableHlo
open Cert.KernelIdeal Cert.KernelIdeal.Gen

variable {F : FTy → Type} [FloatOps F]

/-- The operations between the first and the second region, as one line. -/
abbrev line1 : List (HloOp τ sig (Elt F)) := hostOps1 ++ hostOps1_1 ++ hostOps1_2

/-- The first layer's output from the first dense product. -/
theorem layer (V : Valuation τ sig (Elt F)) :
    after (line1 (F := F)) V (Proc.devRef .tc main_v48) = Cert.Gcn.propagate (F := F) (V (Proc.devRef .tc main_v31)) (V (Proc.devRef .tc main_v3)) (V (Proc.devRef .tc main_v6)) (V (Proc.devRef .tc main_v29)) (V (Proc.devRef .tc main_arg4)) := by
  simp only [line1, hostOps1, hostOps1_1, hostOps1_2, List.cons_append, List.nil_append]
  after_results_simp
  try simp only [Cert.LibStretch.ofBuf_toBuf, Cert.LibStretch.toBuf_ofBuf]
  try rfl

/-- The second region's bias row: zeros. -/
theorem zeroBias (V : Valuation τ sig (Elt F)) :
    after (line1 (F := F)) V (Proc.devRef .tc main_v49) = broadcastInDim S128 ![] bcast_S_S128 (constant (F := F) S_ .f32 0x00000000#32) := by
  simp only [line1, hostOps1, hostOps1_1, hostOps1_2, List.cons_append, List.nil_append]
  after_results_simp
  try simp only [Cert.LibStretch.ofBuf_toBuf, Cert.LibStretch.toBuf_ofBuf]
  try rfl

/-- This buffer is not written. -/
theorem kept_v3 (V : Valuation τ sig (Elt F)) :
    after (line1 (F := F)) V (Proc.devRef .tc main_v3) = V (Proc.devRef .tc main_v3) := by
  simp only [line1, hostOps1, hostOps1_1, hostOps1_2, List.cons_append, List.nil_append]
  after_results_simp
  try simp only [Cert.LibStretch.ofBuf_toBuf, Cert.LibStretch.toBuf_ofBuf]
  try rfl

/-- This buffer is not written. -/
theorem kept_v6 (V : Valuation τ sig (Elt F)) :
    after (line1 (F := F)) V (Proc.devRef .tc main_v6) = V (Proc.devRef .tc main_v6) := by
  simp only [line1, hostOps1, hostOps1_1, hostOps1_2, List.cons_append, List.nil_append]
  after_results_simp
  try simp only [Cert.LibStretch.ofBuf_toBuf, Cert.LibStretch.toBuf_ofBuf]
  try rfl

/-- This buffer is not written. -/
theorem kept_v29 (V : Valuation τ sig (Elt F)) :
    after (line1 (F := F)) V (Proc.devRef .tc main_v29) = V (Proc.devRef .tc main_v29) := by
  simp only [line1, hostOps1, hostOps1_1, hostOps1_2, List.cons_append, List.nil_append]
  after_results_simp
  try simp only [Cert.LibStretch.ofBuf_toBuf, Cert.LibStretch.toBuf_ofBuf]
  try rfl

/-- This buffer is not written. -/
theorem kept_arg2 (V : Valuation τ sig (Elt F)) :
    after (line1 (F := F)) V (Proc.devRef .tc main_arg2) = V (Proc.devRef .tc main_arg2) := by
  simp only [line1, hostOps1, hostOps1_1, hostOps1_2, List.cons_append, List.nil_append]
  after_results_simp
  try simp only [Cert.LibStretch.ofBuf_toBuf, Cert.LibStretch.toBuf_ofBuf]
  try rfl

/-- This buffer is not written. -/
theorem kept_arg5 (V : Valuation τ sig (Elt F)) :
    after (line1 (F := F)) V (Proc.devRef .tc main_arg5) = V (Proc.devRef .tc main_arg5) := by
  simp only [line1, hostOps1, hostOps1_1, hostOps1_2, List.cons_append, List.nil_append]
  after_results_simp
  try simp only [Cert.LibStretch.ofBuf_toBuf, Cert.LibStretch.toBuf_ofBuf]
  try rfl

/-- This buffer is not written. -/
theorem kept_arg6 (V : Valuation τ sig (Elt F)) :
    after (line1 (F := F)) V (Proc.devRef .tc main_arg6) = V (Proc.devRef .tc main_arg6) := by
  simp only [line1, hostOps1, hostOps1_1, hostOps1_2, List.cons_append, List.nil_append]
  after_results_simp
  try simp only [Cert.LibStretch.ofBuf_toBuf, Cert.LibStretch.toBuf_ofBuf]
  try rfl

/-- This buffer is not written. -/
theorem kept_arg7 (V : Valuation τ sig (Elt F)) :
    after (line1 (F := F)) V (Proc.devRef .tc main_arg7) = V (Proc.devRef .tc main_arg7) := by
  simp only [line1, hostOps1, hostOps1_1, hostOps1_2, List.cons_append, List.nil_append]
  after_results_simp
  try simp only [Cert.LibStretch.ofBuf_toBuf, Cert.LibStretch.toBuf_ofBuf]
  try rfl

/-- This buffer is not written. -/
theorem kept_arg8 (V : Valuation τ sig (Elt F)) :
    after (line1 (F := F)) V (Proc.devRef .tc main_arg8) = V (Proc.devRef .tc main_arg8) := by
  simp only [line1, hostOps1, hostOps1_1, hostOps1_2, List.cons_append, List.nil_append]
  after_results_simp
  try simp only [Cert.LibStretch.ofBuf_toBuf, Cert.LibStretch.toBuf_ofBuf]
  try rfl

end Cert.KernelIdeal.Stretch1

end
-- ==== Proof.KernelStretch2.lean ====
/-
  The host operations between the second and the third dense product, read for any contents of the buffers they
  start from: they finish the second layer and average the node rows within each graph.
-/
import proofs.«117734_j66958540144770_1_alg».proof.Proof.Gen.KernelIdeal.Launch
import proofs.«117734_j66958540144770_1_alg».proof.Proof.Spec
import proofs.«117734_j66958540144770_1_alg».proof.Proof.LibStretch
import Idealize.ShloMosaic.Lib.StableHlo.Run

set_option maxRecDepth 16384

noncomputable section

namespace Cert.KernelIdeal.Stretch2

open Idealize.ShloMosaic Idealize.ShloMosaic.TcCoe Idealize.SL.Sem Idealize.ShloMosaic.StableHlo
open Cert.KernelIdeal Cert.KernelIdeal.Gen

variable {F : FTy → Type} [FloatOps F]

/-- The operations between the second and the third region, as one line. -/
abbrev line2 : List (HloOp τ sig (Elt F)) := hostOps2 ++ hostOps2_1 ++ hostOps2_2 ++ hostOps2_3 ++ hostOps2_4

/-- The graph means of the second layer's output, from the second dense product. -/
theorem pooled (V : Valuation τ sig (Elt F)) :
    after (line2 (F := F)) V (Proc.devRef .tc main_v78) = Cert.Gcn.meanPool (F := F) (Cert.Gcn.propagate (F := F) (V (Proc.devRef .tc main_v50)) (V (Proc.devRef .tc main_v3)) (V (Proc.devRef .tc main_v6)) (V (Proc.devRef .tc main_v29)) (V (Proc.devRef .tc main_arg6))) (V (Proc.devRef .tc main_arg2)) := by
  simp only [line2, hostOps2, hostOps2_1, hostOps2_2, hostOps2_3, hostOps2_4, List.cons_append, List.nil_append]
  after_results_simp
  try simp only [Cert.LibStretch.ofBuf_toBuf, Cert.LibStretch.toBuf_ofBuf]
  try rfl

/-- This buffer is not written. -/
theorem kept_arg7 (V : Valuation τ sig (Elt F)) :
    after (line2 (F := F)) V (Proc.devRef .tc main_arg7) = V (Proc.devRef .tc main_arg7) := by
  simp only [line2, hostOps2, hostOps2_1, hostOps2_2, hostOps2_3, hostOps2_4, List.cons_append, List.nil_append]
  after_results_simp
  try simp only [Cert.LibStretch.ofBuf_toBuf, Cert.LibStretch.toBuf_ofBuf]
  try rfl

/-- This buffer is not written. -/
theorem kept_arg8 (V : Valuation τ sig (Elt F)) :
    after (line2 (F := F)) V (Proc.devRef .tc main_arg8) = V (Proc.devRef .tc main_arg8) := by
  simp only [line2, hostOps2, hostOps2_1, hostOps2_2, hostOps2_3, hostOps2_4, List.cons_append, List.nil_append]
  after_results_simp
  try simp only [Cert.LibStretch.ofBuf_toBuf, Cert.LibStretch.toBuf_ofBuf]
  try rfl

end Cert.KernelIdeal.Stretch2

end
-- ==== Proof.KernelFold.lean ====
/-
  The idealized kernel's result buffer ends holding the network function of the argument arrays.

  The buffer contents are followed through the program's segments.  Before the first region the host operations
  have built the pair lists and weights and a zero bias row; the first region leaves the first dense product; the
  next stretch finishes the first layer; the second region leaves the second dense product; the next stretch
  finishes the second layer and takes the graph means; the third region leaves the read-out.  A buffer a segment
  does not write keeps its contents, so the pair lists, the weights and the argument arrays are the same at every
  boundary.  That each region leaves the dense product of the arrays it finds (its grid's row blocks tile the
  output, a product into the zero splat is the plain sum of products, and adding a zero bias row changes nothing)
  is taken here as a hypothesis, proved region by region in its own module.
-/
import proofs.«117734_j66958540144770_1_alg».proof.Proof.Gen.KernelIdeal.Frame
import proofs.«117734_j66958540144770_1_alg».proof.Proof.KernelStretch0
import proofs.«117734_j66958540144770_1_alg».proof.Proof.KernelStretch1
import proofs.«117734_j66958540144770_1_alg».proof.Proof.KernelStretch2
import proofs.«117734_j66958540144770_1_alg».proof.Proof.Spec
import proofs.«117734_j66958540144770_1_alg».proof.Proof.LibStretch
import Idealize.ShloMosaic.PureOps.Ideal

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen

/-- Each region leaves its output array at the dense product of the arrays it finds when entered (the first two
    under a zero bias row, the third with its bias row added). -/
def RegionsAreDense : Prop :=
  (∀ (V : (c : Dev nD) → (b : Ref sig .tc) → Buf (Elt Ideal) ((c : Thread nD τ).loc b)) (c : Dev nD),
      V c main_v30 = broadcastInDim S128 ![] bcast_S_S128 (constant (F := Ideal) S_ .f32 0x00000000#32) →
      (dat0 (F := Ideal) V c).arrAt 3 cfg0.N = Cert.Gcn.dense (F := Ideal) (V c main_arg0) (V c main_arg3))
  ∧ (∀ (V : (c : Dev nD) → (b : Ref sig .tc) → Buf (Elt Ideal) ((c : Thread nD τ).loc b)) (c : Dev nD),
      V c main_v49 = broadcastInDim S128 ![] bcast_S_S128 (constant (F := Ideal) S_ .f32 0x00000000#32) →
      (dat1 (F := Ideal) V c).arrAt 3 cfg1.N = Cert.Gcn.dense (F := Ideal) (V c main_v48) (V c main_arg5))
  ∧ (∀ (V : (c : Dev nD) → (b : Ref sig .tc) → Buf (Elt Ideal) ((c : Thread nD τ).loc b)) (c : Dev nD),
      (dat2 (F := Ideal) V c).arrAt 3 cfg2.N = Cert.Gcn.readout (F := Ideal) (V c main_v78) (V c main_arg7) (V c main_arg8))

variable (m : (ℓ : Loc nD τ sig) → Buf (Elt Ideal) ℓ) (ρ : Dev nD → PrngReg) (c : Dev nD)

/-! ## The contents at a region's entry are one line of host operations run from the previous boundary -/

theorem entry0 : W3 m ρ c = after (Stretch0.line0 (F := Ideal)) (W0 m ρ c) := by
  show after hostOps0_2 (after hostOps0_1 (after hostOps0 (W0 m ρ c))) = after (hostOps0 ++ hostOps0_1 ++ hostOps0_2) (W0 m ρ c)
  rw [Cert.LibStretch.after_append, Cert.LibStretch.after_append]

theorem entry1 : W7 m ρ c = after (Stretch1.line1 (F := Ideal)) (W4 m ρ c) := by
  show after hostOps1_2 (after hostOps1_1 (after hostOps1 (W4 m ρ c))) = after (hostOps1 ++ hostOps1_1 ++ hostOps1_2) (W4 m ρ c)
  rw [Cert.LibStretch.after_append, Cert.LibStretch.after_append]

theorem entry2 : W13 m ρ c = after (Stretch2.line2 (F := Ideal)) (W8 m ρ c) := by
  show after hostOps2_4 (after hostOps2_3 (after hostOps2_2 (after hostOps2_1 (after hostOps2 (W8 m ρ c)))))
    = after (hostOps2 ++ hostOps2_1 ++ hostOps2_2 ++ hostOps2_3 ++ hostOps2_4) (W8 m ρ c)
  rw [Cert.LibStretch.after_append, Cert.LibStretch.after_append, Cert.LibStretch.after_append, Cert.LibStretch.after_append]

/-! ## What is not written stays: the pair lists, the weights and the arguments at each boundary -/

theorem at3_v3 : W3 m ρ c (Proc.devRef .tc main_v3) = (Cert.Gcn.srcOf (F := Ideal) (W0 m ρ c (Proc.devRef .tc main_arg1))) :=
  (congrFun (entry0 m ρ c) _).trans (Stretch0.sources (W0 m ρ c))
theorem at4_v3 : W4 m ρ c (Proc.devRef .tc main_v3) = (Cert.Gcn.srcOf (F := Ideal) (W0 m ρ c (Proc.devRef .tc main_arg1))) :=
  (W4_of_ne m ρ c main_v3 (by decide)).trans (at3_v3 m ρ c)
theorem at7_v3 : W7 m ρ c (Proc.devRef .tc main_v3) = (Cert.Gcn.srcOf (F := Ideal) (W0 m ρ c (Proc.devRef .tc main_arg1))) :=
  (congrFun (entry1 m ρ c) _).trans ((Stretch1.kept_v3 (W4 m ρ c)).trans (at4_v3 m ρ c))
theorem at8_v3 : W8 m ρ c (Proc.devRef .tc main_v3) = (Cert.Gcn.srcOf (F := Ideal) (W0 m ρ c (Proc.devRef .tc main_arg1))) :=
  (W8_of_ne m ρ c main_v3 (by decide)).trans (at7_v3 m ρ c)

theorem at3_v6 : W3 m ρ c (Proc.devRef .tc main_v6) = (Cert.Gcn.dstOf (F := Ideal) (W0 m ρ c (Proc.devRef .tc main_arg1))) :=
  (congrFun (entry0 m ρ c) _).trans (Stretch0.destinations (W0 m ρ c))
theorem at4_v6 : W4 m ρ c (Proc.devRef .tc main_v6) = (Cert.Gcn.dstOf (F := Ideal) (W0 m ρ c (Proc.devRef .tc main_arg1))) :=
  (W4_of_ne m ρ c main_v6 (by decide)).trans (at3_v6 m ρ c)
theorem at7_v6 : W7 m ρ c (Proc.devRef .tc main_v6) = (Cert.Gcn.dstOf (F := Ideal) (W0 m ρ c (Proc.devRef .tc main_arg1))) :=
  (congrFun (entry1 m ρ c) _).trans ((Stretch1.kept_v6 (W4 m ρ c)).trans (at4_v6 m ρ c))
theorem at8_v6 : W8 m ρ c (Proc.devRef .tc main_v6) = (Cert.Gcn.dstOf (F := Ideal) (W0 m ρ c (Proc.devRef .tc main_arg1))) :=
  (W8_of_ne m ρ c main_v6 (by decide)).trans (at7_v6 m ρ c)

theorem at3_v29 : W3 m ρ c (Proc.devRef .tc main_v29) = (Cert.Gcn.edgeWeight (F := Ideal) (Cert.Gcn.srcOf (F := Ideal) (W0 m ρ c (Proc.devRef .tc main_arg1))) (Cert.Gcn.dstOf (F := Ideal) (W0 m ρ c (Proc.devRef .tc main_arg1)))) :=
  (congrFun (entry0 m ρ c) _).trans (Stretch0.weights (W0 m ρ c))
theorem at4_v29 : W4 m ρ c (Proc.devRef .tc main_v29) = (Cert.Gcn.edgeWeight (F := Ideal) (Cert.Gcn.srcOf (F := Ideal) (W0 m ρ c (Proc.devRef .tc main_arg1))) (Cert.Gcn.dstOf (F := Ideal) (W0 m ρ c (Proc.devRef .tc main_arg1)))) :=
  (W4_of_ne m ρ c main_v29 (by decide)).trans (at3_v29 m ρ c)
theorem at7_v29 : W7 m ρ c (Proc.devRef .tc main_v29) = (Cert.Gcn.edgeWeight (F := Ideal) (Cert.Gcn.srcOf (F := Ideal) (W0 m ρ c (Proc.devRef .tc main_arg1))) (Cert.Gcn.dstOf (F := Ideal) (W0 m ρ c (Proc.devRef .tc main_arg1)))) :=
  (congrFun (entry1 m ρ c) _).trans ((Stretch1.kept_v29 (W4 m ρ c)).trans (at4_v29 m ρ c))
theorem at8_v29 : W8 m ρ c (Proc.devRef .tc main_v29) = (Cert.Gcn.edgeWeight (F := Ideal) (Cert.Gcn.srcOf (F := Ideal) (W0 m ρ c (Proc.devRef .tc main_arg1))) (Cert.Gcn.dstOf (F := Ideal) (W0 m ρ c (Proc.devRef .tc main_arg1)))) :=
  (W8_of_ne m ρ c main_v29 (by decide)).trans (at7_v29 m ρ c)

theorem at3_arg0 : W3 m ρ c (Proc.devRef .tc main_arg0) = (W0 m ρ c (Proc.devRef .tc main_arg0)) :=
  (congrFun (entry0 m ρ c) _).trans (Stretch0.kept_arg0 (W0 m ρ c))

theorem at3_arg3 : W3 m ρ c (Proc.devRef .tc main_arg3) = (W0 m ρ c (Proc.devRef .tc main_arg3)) :=
  (congrFun (entry0 m ρ c) _).trans (Stretch0.kept_arg3 (W0 m ρ c))

theorem at3_arg4 : W3 m ρ c (Proc.devRef .tc main_arg4) = (W0 m ρ c (Proc.devRef .tc main_arg4)) :=
  (congrFun (entry0 m ρ c) _).trans (Stretch0.kept_arg4 (W0 m ρ c))
theorem at4_arg4 : W4 m ρ c (Proc.devRef .tc main_arg4) = (W0 m ρ c (Proc.devRef .tc main_arg4)) :=
  (W4_of_ne m ρ c main_arg4 (by decide)).trans (at3_arg4 m ρ c)

theorem at3_arg5 : W3 m ρ c (Proc.devRef .tc main_arg5) = (W0 m ρ c (Proc.devRef .tc main_arg5)) :=
  (congrFun (entry0 m ρ c) _).trans (Stretch0.kept_arg5 (W0 m ρ c))
theorem at4_arg5 : W4 m ρ c (Proc.devRef .tc main_arg5) = (W0 m ρ c (Proc.devRef .tc main_arg5)) :=
  (W4_of_ne m ρ c main_arg5 (by decide)).trans (at3_arg5 m ρ c)
theorem at7_arg5 : W7 m ρ c (Proc.devRef .tc main_arg5) = (W0 m ρ c (Proc.devRef .tc main_arg5)) :=
  (congrFun (entry1 m ρ c) _).trans ((Stretch1.kept_arg5 (W4 m ρ c)).trans (at4_arg5 m ρ c))

theorem at3_arg2 : W3 m ρ c (Proc.devRef .tc main_arg2) = (W0 m ρ c (Proc.devRef .tc main_arg2)) :=
  (congrFun (entry0 m ρ c) _).trans (Stretch0.kept_arg2 (W0 m ρ c))
theorem at4_arg2 : W4 m ρ c (Proc.devRef .tc main_arg2) = (W0 m ρ c (Proc.devRef .tc main_arg2)) :=
  (W4_of_ne m ρ c main_arg2 (by decide)).trans (at3_arg2 m ρ c)
theorem at7_arg2 : W7 m ρ c (Proc.devRef .tc main_arg2) = (W0 m ρ c (Proc.devRef .tc main_arg2)) :=
  (congrFun (entry1 m ρ c) _).trans ((Stretch1.kept_arg2 (W4 m ρ c)).trans (at4_arg2 m ρ c))
theorem at8_arg2 : W8 m ρ c (Proc.devRef .tc main_arg2) = (W0 m ρ c (Proc.devRef .tc main_arg2)) :=
  (W8_of_ne m ρ c main_arg2 (by decide)).trans (at7_arg2 m ρ c)

theorem at3_arg6 : W3 m ρ c (Proc.devRef .tc main_arg6) = (W0 m ρ c (Proc.devRef .tc main_arg6)) :=
  (congrFun (entry0 m ρ c) _).trans (Stretch0.kept_arg6 (W0 m ρ c))
theorem at4_arg6 : W4 m ρ c (Proc.devRef .tc main_arg6) = (W0 m ρ c (Proc.devRef .tc main_arg6)) :=
  (W4_of_ne m ρ c main_arg6 (by decide)).trans (at3_arg6 m ρ c)
theorem at7_arg6 : W7 m ρ c (Proc.devRef .tc main_arg6) = (W0 m ρ c (Proc.devRef .tc main_arg6)) :=
  (congrFun (entry1 m ρ c) _).trans ((Stretch1.kept_arg6 (W4 m ρ c)).trans (at4_arg6 m ρ c))
theorem at8_arg6 : W8 m ρ c (Proc.devRef .tc main_arg6) = (W0 m ρ c (Proc.devRef .tc main_arg6)) :=
  (W8_of_ne m ρ c main_arg6 (by decide)).trans (at7_arg6 m ρ c)

theorem at3_arg7 : W3 m ρ c (Proc.devRef .tc main_arg7) = (W0 m ρ c (Proc.devRef .tc main_arg7)) :=
  (congrFun (entry0 m ρ c) _).trans (Stretch0.kept_arg7 (W0 m ρ c))
theorem at4_arg7 : W4 m ρ c (Proc.devRef .tc main_arg7) = (W0 m ρ c (Proc.devRef .tc main_arg7)) :=
  (W4_of_ne m ρ c main_arg7 (by decide)).trans (at3_arg7 m ρ c)
theorem at7_arg7 : W7 m ρ c (Proc.devRef .tc main_arg7) = (W0 m ρ c (Proc.devRef .tc main_arg7)) :=
  (congrFun (entry1 m ρ c) _).trans ((Stretch1.kept_arg7 (W4 m ρ c)).trans (at4_arg7 m ρ c))
theorem at8_arg7 : W8 m ρ c (Proc.devRef .tc main_arg7) = (W0 m ρ c (Proc.devRef .tc main_arg7)) :=
  (W8_of_ne m ρ c main_arg7 (by decide)).trans (at7_arg7 m ρ c)
theorem at13_arg7 : W13 m ρ c (Proc.devRef .tc main_arg7) = (W0 m ρ c (Proc.devRef .tc main_arg7)) :=
  (congrFun (entry2 m ρ c) _).trans ((Stretch2.kept_arg7 (W8 m ρ c)).trans (at8_arg7 m ρ c))

theorem at3_arg8 : W3 m ρ c (Proc.devRef .tc main_arg8) = (W0 m ρ c (Proc.devRef .tc main_arg8)) :=
  (congrFun (entry0 m ρ c) _).trans (Stretch0.kept_arg8 (W0 m ρ c))
theorem at4_arg8 : W4 m ρ c (Proc.devRef .tc main_arg8) = (W0 m ρ c (Proc.devRef .tc main_arg8)) :=
  (W4_of_ne m ρ c main_arg8 (by decide)).trans (at3_arg8 m ρ c)
theorem at7_arg8 : W7 m ρ c (Proc.devRef .tc main_arg8) = (W0 m ρ c (Proc.devRef .tc main_arg8)) :=
  (congrFun (entry1 m ρ c) _).trans ((Stretch1.kept_arg8 (W4 m ρ c)).trans (at4_arg8 m ρ c))
theorem at8_arg8 : W8 m ρ c (Proc.devRef .tc main_arg8) = (W0 m ρ c (Proc.devRef .tc main_arg8)) :=
  (W8_of_ne m ρ c main_arg8 (by decide)).trans (at7_arg8 m ρ c)
theorem at13_arg8 : W13 m ρ c (Proc.devRef .tc main_arg8) = (W0 m ρ c (Proc.devRef .tc main_arg8)) :=
  (congrFun (entry2 m ρ c) _).trans ((Stretch2.kept_arg8 (W8 m ρ c)).trans (at8_arg8 m ρ c))

/-! ## The values the segments compute, boundary by boundary -/

theorem zero_at3 : W3 m ρ c (Proc.devRef .tc main_v30) = (broadcastInDim S128 ![] bcast_S_S128 (constant (F := Ideal) S_ .f32 0x00000000#32)) :=
  (congrFun (entry0 m ρ c) _).trans (Stretch0.zeroBias (W0 m ρ c))

theorem zero_at7 : W7 m ρ c (Proc.devRef .tc main_v49) = (broadcastInDim S128 ![] bcast_S_S128 (constant (F := Ideal) S_ .f32 0x00000000#32)) :=
  (congrFun (entry1 m ρ c) _).trans (Stretch1.zeroBias (W4 m ρ c))

variable (hR : RegionsAreDense)
include hR

/-- After the first region: the first dense product. -/
theorem product1_at4 : W4 m ρ c (Proc.devRef .tc main_v31) = (Cert.Gcn.dense (F := Ideal) (W0 m ρ c (Proc.devRef .tc main_arg0)) (W0 m ρ c (Proc.devRef .tc main_arg3))) := by
  refine (W4_arr m ρ c 3).trans ((hR.1 (V3 m ρ) c (zero_at3 m ρ c)).trans ?_)
  show Cert.Gcn.dense (F := Ideal) (W3 m ρ c (Proc.devRef .tc main_arg0)) (W3 m ρ c (Proc.devRef .tc main_arg3)) = _
  rw [at3_arg0, at3_arg3]

/-- At the second region's entry: the first layer's output. -/
theorem layer1_at7 : W7 m ρ c (Proc.devRef .tc main_v48) = (Cert.Gcn.propagate (F := Ideal) (Cert.Gcn.dense (F := Ideal) (W0 m ρ c (Proc.devRef .tc main_arg0)) (W0 m ρ c (Proc.devRef .tc main_arg3))) (Cert.Gcn.srcOf (F := Ideal) (W0 m ρ c (Proc.devRef .tc main_arg1))) (Cert.Gcn.dstOf (F := Ideal) (W0 m ρ c (Proc.devRef .tc main_arg1))) (Cert.Gcn.edgeWeight (F := Ideal) (Cert.Gcn.srcOf (F := Ideal) (W0 m ρ c (Proc.devRef .tc main_arg1))) (Cert.Gcn.dstOf (F := Ideal) (W0 m ρ c (Proc.devRef .tc main_arg1)))) (W0 m ρ c (Proc.devRef .tc main_arg4))) := by
  refine (congrFun (entry1 m ρ c) _).trans ((Stretch1.layer (W4 m ρ c)).trans ?_)
  rw [product1_at4 m ρ c hR, at4_v3, at4_v6, at4_v29, at4_arg4]

/-- After the second region: the second dense product. -/
theorem product2_at8 : W8 m ρ c (Proc.devRef .tc main_v50) = (Cert.Gcn.dense (F := Ideal) (Cert.Gcn.propagate (F := Ideal) (Cert.Gcn.dense (F := Ideal) (W0 m ρ c (Proc.devRef .tc main_arg0)) (W0 m ρ c (Proc.devRef .tc main_arg3))) (Cert.Gcn.srcOf (F := Ideal) (W0 m ρ c (Proc.devRef .tc main_arg1))) (Cert.Gcn.dstOf (F := Ideal) (W0 m ρ c (Proc.devRef .tc main_arg1))) (Cert.Gcn.edgeWeight (F := Ideal) (Cert.Gcn.srcOf (F := Ideal) (W0 m ρ c (Proc.devRef .tc main_arg1))) (Cert.Gcn.dstOf (F := Ideal) (W0 m ρ c (Proc.devRef .tc main_arg1)))) (W0 m ρ c (Proc.devRef .tc main_arg4))) (W0 m ρ c (Proc.devRef .tc main_arg5))) := by
  refine (W8_arr m ρ c 3).trans ((hR.2.1 (V7 m ρ) c (zero_at7 m ρ c)).trans ?_)
  show Cert.Gcn.dense (F := Ideal) (W7 m ρ c (Proc.devRef .tc main_v48)) (W7 m ρ c (Proc.devRef .tc main_arg5)) = _
  rw [layer1_at7 m ρ c hR, at7_arg5]

/-- At the third region's entry: the graph means of the second layer's output. -/
theorem pooled_at13 : W13 m ρ c (Proc.devRef .tc main_v78) = (Cert.Gcn.meanPool (F := Ideal) (Cert.Gcn.propagate (F := Ideal) (Cert.Gcn.dense (F := Ideal) (Cert.Gcn.propagate (F := Ideal) (Cert.Gcn.dense (F := Ideal) (W0 m ρ c (Proc.devRef .tc main_arg0)) (W0 m ρ c (Proc.devRef .tc main_arg3))) (Cert.Gcn.srcOf (F := Ideal) (W0 m ρ c (Proc.devRef .tc main_arg1))) (Cert.Gcn.dstOf (F := Ideal) (W0 m ρ c (Proc.devRef .tc main_arg1))) (Cert.Gcn.edgeWeight (F := Ideal) (Cert.Gcn.srcOf (F := Ideal) (W0 m ρ c (Proc.devRef .tc main_arg1))) (Cert.Gcn.dstOf (F := Ideal) (W0 m ρ c (Proc.devRef .tc main_arg1)))) (W0 m ρ c (Proc.devRef .tc main_arg4))) (W0 m ρ c (Proc.devRef .tc main_arg5))) (Cert.Gcn.srcOf (F := Ideal) (W0 m ρ c (Proc.devRef .tc main_arg1))) (Cert.Gcn.dstOf (F := Ideal) (W0 m ρ c (Proc.devRef .tc main_arg1))) (Cert.Gcn.edgeWeight (F := Ideal) (Cert.Gcn.srcOf (F := Ideal) (W0 m ρ c (Proc.devRef .tc main_arg1))) (Cert.Gcn.dstOf (F := Ideal) (W0 m ρ c (Proc.devRef .tc main_arg1)))) (W0 m ρ c (Proc.devRef .tc main_arg6))) (W0 m ρ c (Proc.devRef .tc main_arg2))) := by
  refine (congrFun (entry2 m ρ c) _).trans ((Stretch2.pooled (W8 m ρ c)).trans ?_)
  rw [product2_at8 m ρ c hR, at8_v3, at8_v6, at8_v29, at8_arg6, at8_arg2]

/-- After the third region: the read-out, which is the network function of the launch contents of the arguments. -/
theorem result_at14 : W14 m ρ c (Proc.devRef .tc main_v79)
    = Cert.Gcn.network (F := Ideal) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) := by
  refine (W14_arr m ρ c 3).trans ((hR.2.2 (V13 m ρ) c).trans ?_)
  show Cert.Gcn.readout (F := Ideal) (W13 m ρ c (Proc.devRef .tc main_v78)) (W13 m ρ c (Proc.devRef .tc main_arg7)) (W13 m ρ c (Proc.devRef .tc main_arg8)) = _
  rw [pooled_at13 m ρ c hR, at13_arg7, at13_arg8]
  rfl

end Cert.KernelIdeal.Fold

end
-- ==== Proof.KernelValue.lean ====
/-
  The idealized kernel's run, read as a value: every execution terminates with the result buffer at the network
  function of the argument arrays as launched, and the arguments unchanged — given that each region leaves the dense
  product of the arrays it finds.
-/
import proofs.«117734_j66958540144770_1_alg».proof.Proof.KernelRun
import proofs.«117734_j66958540144770_1_alg».proof.Proof.KernelFold

set_option maxRecDepth 16384

noncomputable section

namespace Cert.KernelIdeal.NetworkValue

open Idealize.ShloMosaic Idealize.ShloMosaic.TcCoe Idealize.SL.Sem
open Cert.KernelIdeal Cert.KernelIdeal.Gen

theorem run (hR : Cert.KernelIdeal.Fold.RegionsAreDense) (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v79) = Cert.Gcn.network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (Cert.KernelIdeal.Fold.result_at14 m ρ c hR), (h c).2⟩)
    (Cert.KernelIdeal.WholeRun.run_result (F := Ideal) m ρ)

end Cert.KernelIdeal.NetworkValue

end
-- ==== Proof.LibPlainDot.lean ====
/-
  The plain product of an M×K matrix by a K×N matrix, read at one entry, at the ideal values:
  entry (a, b) is the sum over the contracted coordinate c of A(a, c) · B(c, b).
  Stated for ANY dimension record equal to the plain one (rows × contraction by contraction × columns, no batch
  axis), for a kernel's matrix product accumulated into the zero splat and for the host's product, which has no
  accumulator: adding to zero is the only arithmetic used, so both hold at the infinities too.
-/
import Idealize.ShloMosaic.Lib.StackMember

noncomputable section

namespace Cert.LibPlainDot

open Idealize.ShloMosaic Idealize.ShloMosaic.ValueIdx
open scoped BigOperators

variable {M K N : Nat} {φ₁ φ₂ : FTy}

/-- The host's plain product at entry (a, b): the sum over c of A(a, c) · B(c, b). -/
theorem dotGeneral_plain_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    Host.dotGeneral D prec A B (ix2 a b) = ∑ c : Fin K, A (ix2 a c) * B (ix2 c b) := by
  subst hD
  exact StackMember.dotGeneral_plain_apply prec A B a b

/-- A kernel's plain product accumulated into the zero splat, at entry (a, b): the same sum. -/
theorem matmul_plain_zero_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact dotGeneral_plain_apply D hD prec A B a b

end Cert.LibPlainDot

end
-- ==== Proof.DensePayload.lean ====
/-
  What one step of each of the three dense products stores, read at one entry, at the ideal values:
  entry (p, q) of a block's result is the sum over the contracted coordinate k of x(p, k) · w(k, q), plus the
  bias entry b(q).  Rounding to the narrower float type is the identity on the extended reals, the product is
  accumulated into zeros, and the bias row is the same for every p.  When the block's rows are rows of a taller
  matrix X, its weights are W and its bias entry is zero, that entry is an entry of the product X · W; for the last
  product, whose one block is the whole matrix, it is an entry of the product plus the bias row.
-/
import proofs.«117734_j66958540144770_1_alg».proof.Proof.Gen.KernelIdeal.Skeleton
import proofs.«117734_j66958540144770_1_alg».proof.Proof.Spec
import proofs.«117734_j66958540144770_1_alg».proof.Proof.LibPlainDot
import Idealize.ShloMosaic.Lib.ValueIdx
import Idealize.ShloMosaic.Lib.ValueLayout
import Idealize.ShloMosaic.Lib.Pipeline.Value

noncomputable section

namespace Cert.KernelIdeal.DenseBlocks

open Idealize.ShloMosaic Idealize.ShloMosaic.ValueIdx Cert.KernelIdeal Cert.KernelIdeal.Gen
open scoped BigOperators

theorem zeros2 : (![0, 0] : Fin 2 → Nat) = fun _ => 0 := funext fun a => by fin_cases a <;> rfl
theorem zeros1 : (![0] : Fin 1 → Nat) = fun _ => 0 := funext fun a => by fin_cases a; rfl

/-- The bias row of width n spread over m rows, at entry (p, q): the bias entry q. -/
theorem biasRows_apply {m n : Nat} (b : FVec Ideal ⟨1, ![n]⟩ .f32)
    (h₁ : (⟨1, ![n]⟩ : Shape).ShapeCasts ⟨2, ![1, n]⟩) (h₂ : (⟨2, ![1, n]⟩ : Shape).Broadcasts ⟨2, ![m, n]⟩)
    (p : Fin m) (q : Fin n) :
    broadcastTo ⟨2, ![m, n]⟩ (shapeCast ⟨2, ![1, n]⟩ b h₁) h₂ (ix2 p q) = b (ix1 q) :=
  (broadcastTo_1b_ab_apply _ h₂ p q).trans (shapeCast_a_1a_apply b h₁ 0 q)

/-- A 5000 × 128 block of the first product at entry (p, q). -/
theorem firstBlock_apply (x : FVec Ideal S5000x128 .f32) (w : FVec Ideal S128x128 .f32) (b : FVec Ideal S128 .f32)
    (p : Fin 5000) (q : Fin 128) :
    k0_pay1 (F := Ideal) x w b (ix2 p q) = (∑ k : Fin 128, x (ix2 p k) * w (ix2 k q)) + b (ix1 q) := by
  unfold k0_pay1
  refine (addf_apply _ _ _).trans ?_
  refine congrArg₂ (· + ·) ?_ ?_
  · exact Cert.LibPlainDot.matmul_plain_zero_apply _ rfl none _ _ p q
  · rw [shapeCast_self]
    exact biasRows_apply b _ _ p q

/-- A 5000 × 128 block of the second product at entry (p, q). -/
theorem secondBlock_apply (x : FVec Ideal S5000x128 .f32) (w : FVec Ideal S128x128 .f32) (b : FVec Ideal S128 .f32)
    (p : Fin 5000) (q : Fin 128) :
    k1_pay1 (F := Ideal) x w b (ix2 p q) = (∑ k : Fin 128, x (ix2 p k) * w (ix2 k q)) + b (ix1 q) := by
  unfold k1_pay1
  refine (addf_apply _ _ _).trans ?_
  refine congrArg₂ (· + ·) ?_ ?_
  · rw [shapeCast_self]
    exact Cert.LibPlainDot.matmul_plain_zero_apply _ rfl none _ _ p q
  · rw [shapeCast_self]
    exact biasRows_apply b _ _ p q

/-- The one 512 × 138 block of the last product at entry (p, q). -/
theorem lastBlock_apply (x : FVec Ideal S512x128 .f32) (w : FVec Ideal S128x138 .f32) (b : FVec Ideal S138 .f32)
    (p : Fin 512) (q : Fin 138) :
    k2_pay1 (F := Ideal) x w b (ix2 p q) = (∑ k : Fin 128, x (ix2 p k) * w (ix2 k q)) + b (ix1 q) := by
  unfold k2_pay1
  refine (addf_apply _ _ _).trans ?_
  refine congrArg₂ (· + ·) ?_ ?_
  · rw [shapeCast_self]
    exact Cert.LibPlainDot.matmul_plain_zero_apply _ rfl none _ _ p q
  · exact biasRows_apply b _ _ p q

/-- Row p of a block against column q of its weights, with a zero bias entry, when the block's row p is row r of X
    and the weights' column q is W's: entry (r, q) of the product of the whole matrices. -/
theorem rowByColumn_eq_dense (x : FVec Ideal S5000x128 .f32) (w : FVec Ideal S128x128 .f32) (b : FVec Ideal S128 .f32)
    (X : FVec Ideal S50000x128 .f32) (W : FVec Ideal S128x128 .f32) (p : Fin 5000) (q : Fin 128) (r : Fin 50000)
    (hx : ∀ k : Fin 128, x (ix2 p k) = X (ix2 r k)) (hw : ∀ k : Fin 128, w (ix2 k q) = W (ix2 k q))
    (hb : b (ix1 q) = 0) :
    (∑ k : Fin 128, x (ix2 p k) * w (ix2 k q)) + b (ix1 q) = Cert.Gcn.dense (F := Ideal) X W (ix2 r q) := by
  rw [hb, add_zero]
  unfold Cert.Gcn.dense
  exact (Finset.sum_congr rfl fun k _ => by rw [hx k, hw k]).trans
    (Cert.LibPlainDot.dotGeneral_plain_apply Cert.ReferenceIdeal.dot_S50000x128_S128x128_S50000x128_1_0_0_1_n_n rfl
      none X W r q).symm

/-- Entry (p, q) of a block of the first product is entry (r, q) of the product of the whole matrices. -/
theorem firstBlock_entry (x : FVec Ideal S5000x128 .f32) (w : FVec Ideal S128x128 .f32) (b : FVec Ideal S128 .f32)
    (X : FVec Ideal S50000x128 .f32) (W : FVec Ideal S128x128 .f32) (p : Fin 5000) (q : Fin 128) (r : Fin 50000)
    (hx : ∀ k : Fin 128, x (ix2 p k) = X (ix2 r k)) (hw : ∀ k : Fin 128, w (ix2 k q) = W (ix2 k q))
    (hb : b (ix1 q) = 0) :
    k0_pay1 (F := Ideal) x w b (ix2 p q) = Cert.Gcn.dense (F := Ideal) X W (ix2 r q) :=
  (firstBlock_apply x w b p q).trans (rowByColumn_eq_dense x w b X W p q r hx hw hb)

/-- Entry (p, q) of a block of the second product is entry (r, q) of the product of the whole matrices. -/
theorem secondBlock_entry (x : FVec Ideal S5000x128 .f32) (w : FVec Ideal S128x128 .f32) (b : FVec Ideal S128 .f32)
    (X : FVec Ideal S50000x128 .f32) (W : FVec Ideal S128x128 .f32) (p : Fin 5000) (q : Fin 128) (r : Fin 50000)
    (hx : ∀ k : Fin 128, x (ix2 p k) = X (ix2 r k)) (hw : ∀ k : Fin 128, w (ix2 k q) = W (ix2 k q))
    (hb : b (ix1 q) = 0) :
    k1_pay1 (F := Ideal) x w b (ix2 p q) = Cert.Gcn.dense (F := Ideal) X W (ix2 r q) :=
  (secondBlock_apply x w b p q).trans (rowByColumn_eq_dense x w b X W p q r hx hw hb)

/-- A bias row of width 138 spread over 512 rows by way of a 1 × 138 matrix, at entry (p, q): the bias entry q. -/
theorem readoutBias_apply (h₁ : S138.BroadcastsInDim S1x138 ![1]) (h₂ : S1x138.BroadcastsInDim S512x138 ![0, 1])
    (B : FVec Ideal S138 .f32) (p : Fin 512) (q : Fin 138) :
    broadcastInDim S512x138 ![0, 1] h₂ (broadcastInDim S1x138 ![1] h₁ B) (ix2 p q) = B (ix1 q) := by
  refine (broadcastInDim_apply _ h₂ _ (ix2 p q) (ix2 (0 : Fin 1) q) fun a => ?_).trans
    (broadcastInDim_apply _ h₁ B (ix2 (0 : Fin 1) q) (ix1 q) fun a => ?_)
  · match a with
    | ⟨0, _⟩ => rfl
    | ⟨1, _⟩ => rfl
  · match a with
    | ⟨0, _⟩ => rfl

/-- Entry (p, q) of the one block of the last product is entry (p, q) of the product plus the bias row. -/
theorem lastBlock_entry (x : FVec Ideal S512x128 .f32) (w : FVec Ideal S128x138 .f32) (b : FVec Ideal S138 .f32)
    (X : FVec Ideal S512x128 .f32) (W : FVec Ideal S128x138 .f32) (B : FVec Ideal S138 .f32) (p : Fin 512) (q : Fin 138)
    (hx : ∀ k : Fin 128, x (ix2 p k) = X (ix2 p k)) (hw : ∀ k : Fin 128, w (ix2 k q) = W (ix2 k q))
    (hb : b (ix1 q) = B (ix1 q)) :
    k2_pay1 (F := Ideal) x w b (ix2 p q) = Cert.Gcn.readout (F := Ideal) X W B (ix2 p q) := by
  rw [lastBlock_apply, hb]
  unfold Cert.Gcn.readout
  refine Eq.trans ?_ (addf_apply _ _ _).symm
  refine congrArg₂ (· + ·) ?_ ?_
  · exact (Finset.sum_congr rfl fun k _ => by rw [hx k, hw k]).trans
      (Cert.LibPlainDot.dotGeneral_plain_apply Cert.ReferenceIdeal.dot_S512x128_S128x138_S512x138_1_0_0_1_n_n rfl
        none X W p q).symm
  · exact (readoutBias_apply _ _ B p q).symm

end Cert.KernelIdeal.DenseBlocks

end
-- ==== Proof.DenseFirst.lean ====
/-
  The first dense product as one array.  The 50000 rows of the features are taken 5000 at a time; step t multiplies
  rows 5000·t … 5000·t + 4999 by the whole 128 × 128 weight matrix, adds the bias row, and writes the result to the
  same rows of the output.  With a bias row of zeros, entry (r, q) of the output is the sum over k of x(r, k) · w(k, q):
  the product of the two whole matrices.  The ten row blocks cover every row, so the output array is that product.
-/
import proofs.«117734_j66958540144770_1_alg».proof.Proof.Gen.KernelIdeal.Frame
import proofs.«117734_j66958540144770_1_alg».proof.Proof.Spec
import proofs.«117734_j66958540144770_1_alg».proof.Proof.DensePayload

set_option maxRecDepth 16384

noncomputable section

namespace Cert.KernelIdeal.DenseBlocks

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b)) (c : Dev nD)

/-- The block indices of the four operands at step t: the rows' and the output's move with t, the weights' and the
    bias's stay. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The rows' block at step t holds rows 5000·t … of the left matrix. -/
theorem rows0 (t : Fin cfg0.N) (p : Fin 5000) (k : Fin 128) (r : Fin 50000) (hr : r.val = t.val * 5000 + p.val) :
    (iblk0 V c 0 t : FVec Ideal S5000x128 .f32) (ix2 p k) = (V c main_arg0 : FVec Ideal S50000x128 .f32) (ix2 r k) := by
  obtain ⟨e0, e1, -⟩ := blockIndex0 t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weights' block at every step is the whole weight matrix. -/
theorem weights0 (t : Fin cfg0.N) (k q : Fin 128) :
    (iblk0 V c 1 t : FVec Ideal S128x128 .f32) (ix2 k q) = (V c main_arg3 : FVec Ideal S128x128 .f32) (ix2 k q) := by
  obtain ⟨-, -, e0, e1, -⟩ := blockIndex0 t
  unfold iblk0
  rw [View.read_apply]
  show V c main_arg3 _ = V c main_arg3 _
  refine congrArg (V c main_arg3) (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The bias block at every step is the whole bias row. -/
theorem bias0 (t : Fin cfg0.N) (q : Fin 128) :
    (iblk0 V c 2 t : FVec Ideal S128 .f32) (ix1 q) = (V c main_v30 : FVec Ideal S128 .f32) (ix1 q) := by
  obtain ⟨-, -, -, -, e0, -⟩ := blockIndex0 t
  unfold iblk0
  rw [View.read_apply]
  show V c main_v30 _ = V c main_v30 _
  refine congrArg (V c main_v30) (funext fun a => Fin.ext ?_)
  match a with
  | ⟨0, _⟩ => show win0_2.index t (0 : Fin 1) * 128 + 1 * q.val = q.val; rw [e0]; omega

/-- What step t writes back is rows 5000·t … of the product of the whole matrices. -/
theorem written0 (hb : V c main_v30 = broadcastInDim S128 ![] bcast_S_S128 (constant (F := Ideal) S_ .f32 0x00000000#32))
    (t : Fin cfg0.N) :
    (dat0 (F := Ideal) V c).flushed 3 t
      = ((cfg0.win 3).blk t).view.read (Elt Ideal) (Cert.Gcn.dense (F := Ideal) (V c main_arg0) (V c main_arg3)) := by
  show (cfg0.win 3).cut (grid0.coords t) ((dat0 V c).after 3 t) = _
  rw [after0_3]
  unfold out0_3
  rw [View.canon_unit_zero zeros2]
  simp only [View.ld_unit_zero (S := S5000x128) zeros2, View.ld_unit_zero (S := S128x128) zeros2,
    View.ld_unit_zero (S := S128) zeros1]
  show (k0_pay1 (F := Ideal) (iblk0 V c 0 t) (iblk0 V c 1 t) (iblk0 V c 2 t) : S5000x128.Idx → EReal)
    = fun j => Cert.Gcn.dense (F := Ideal) (V c main_arg0) (V c main_arg3) (((cfg0.win 3).blk t).view.emb j)
  funext j
  obtain ⟨p, q, rfl⟩ : ∃ (p : Fin 5000) (q : Fin 128), j = ix2 p q := ⟨j 0, j 1, eq_ix2 j⟩
  obtain ⟨-, -, -, -, -, e0, e1⟩ := blockIndex0 t
  have hN : cfg0.N = 10 := N_0
  have ht : t.val < 10 := hN ▸ t.isLt
  have hp : p.val < 5000 := p.isLt
  have e : ((cfg0.win 3).blk t).view.emb (ix2 p q) = ix2 (⟨t.val * 5000 + p.val, by omega⟩ : Fin 50000) q :=
    funext fun a => Fin.ext (by
      match a with
      | ⟨0, _⟩ => show win0_3.index t (0 : Fin 2) * 5000 + 1 * p.val = t.val * 5000 + p.val; rw [e0]; omega
      | ⟨1, _⟩ => show win0_3.index t (1 : Fin 2) * 128 + 1 * q.val = q.val; rw [e1]; omega)
  refine (firstBlock_entry _ _ _ (V c main_arg0) (V c main_arg3) p q ⟨t.val * 5000 + p.val, by omega⟩
    (fun k => rows0 V c t p k _ rfl) (fun k => weights0 V c t k q) ?_).trans (congrArg _ e.symm)
  rw [bias0, hb]
  exact Ideal.ofBits_zero_f32

/-- Row r lies in the block of step r / 5000. -/
theorem rowCovered0 (i : S50000x128.Idx) :
    ∃ t : Fin cfg0.N, (cfg0.win 3).flush t = true ∧ i ∈ ((cfg0.win 3).blk t).view.set := by
  have hN : cfg0.N = 10 := N_0
  have hi0 : (i 0).val < 50000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, -, e0, e1⟩ := blockIndex0 t
  refine ⟨t, flush0_3 t, ?_⟩
  show i ∈ ((View.whole main_v31).slice (win0_3.rect t)).set
  rw [View.set_slice_whole, Rect.mem_set_unit]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- The first product's output array is the product of the features by the first weight matrix. -/
theorem region0_array (hb : V c main_v30 = broadcastInDim S128 ![] bcast_S_S128 (constant (F := Ideal) S_ .f32 0x00000000#32)) :
    (dat0 (F := Ideal) V c).arrAt 3 cfg0.N = Cert.Gcn.dense (F := Ideal) (V c main_arg0) (V c main_arg3) :=
  (dat0 (F := Ideal) V c).arrAt_eq_of_cover 3 _ (fun t _ => written0 V c hb t) (rowCovered0)

end Cert.KernelIdeal.DenseBlocks

end
-- ==== Proof.DenseSecond.lean ====
/-
  The second dense product as one array.  The 50000 rows of the first layer's result are taken 5000 at a time; step t multiplies
  rows 5000·t … 5000·t + 4999 by the whole 128 × 128 weight matrix, adds the bias row, and writes the result to the
  same rows of the output.  With a bias row of zeros, entry (r, q) of the output is the sum over k of x(r, k) · w(k, q):
  the product of the two whole matrices.  The ten row blocks cover every row, so the output array is that product.
-/
import proofs.«117734_j66958540144770_1_alg».proof.Proof.Gen.KernelIdeal.Frame
import proofs.«117734_j66958540144770_1_alg».proof.Proof.Spec
import proofs.«117734_j66958540144770_1_alg».proof.Proof.DensePayload

set_option maxRecDepth 16384

noncomputable section

namespace Cert.KernelIdeal.DenseBlocks

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b)) (c : Dev nD)

/-- The block indices of the four operands at step t: the rows' and the output's move with t, the weights' and the
    bias's stay. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The rows' block at step t holds rows 5000·t … of the left matrix. -/
theorem rows1 (t : Fin cfg1.N) (p : Fin 5000) (k : Fin 128) (r : Fin 50000) (hr : r.val = t.val * 5000 + p.val) :
    (iblk1 V c 0 t : FVec Ideal S5000x128 .f32) (ix2 p k) = (V c main_v48 : FVec Ideal S50000x128 .f32) (ix2 r k) := by
  obtain ⟨e0, e1, -⟩ := blockIndex1 t
  unfold iblk1
  rw [View.read_apply]
  show V c main_v48 _ = V c main_v48 _
  refine congrArg (V c main_v48) (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The weights' block at every step is the whole weight matrix. -/
theorem weights1 (t : Fin cfg1.N) (k q : Fin 128) :
    (iblk1 V c 1 t : FVec Ideal S128x128 .f32) (ix2 k q) = (V c main_arg5 : FVec Ideal S128x128 .f32) (ix2 k q) := by
  obtain ⟨-, -, e0, e1, -⟩ := blockIndex1 t
  unfold iblk1
  rw [View.read_apply]
  show V c main_arg5 _ = V c main_arg5 _
  refine congrArg (V c main_arg5) (funext fun a => Fin.ext ?_)
  match a with
  | ⟨0, _⟩ => show win1_1.index t (0 : Fin 2) * 128 + 1 * k.val = k.val; rw [e0]; omega
  | ⟨1, _⟩ => show win1_1.index t (1 : Fin 2) * 128 + 1 * q.val = q.val; rw [e1]; omega

/-- The bias block at every step is the whole bias row. -/
theorem bias1 (t : Fin cfg1.N) (q : Fin 128) :
    (iblk1 V c 2 t : FVec Ideal S128 .f32) (ix1 q) = (V c main_v49 : FVec Ideal S128 .f32) (ix1 q) := by
  obtain ⟨-, -, -, -, e0, -⟩ := blockIndex1 t
  unfold iblk1
  rw [View.read_apply]
  show V c main_v49 _ = V c main_v49 _
  refine congrArg (V c main_v49) (funext fun a => Fin.ext ?_)
  match a with
  | ⟨0, _⟩ => show win1_2.index t (0 : Fin 1) * 128 + 1 * q.val = q.val; rw [e0]; omega

/-- What step t writes back is rows 5000·t … of the product of the whole matrices. -/
theorem written1 (hb : V c main_v49 = broadcastInDim S128 ![] bcast_S_S128 (constant (F := Ideal) S_ .f32 0x00000000#32))
    (t : Fin cfg1.N) :
    (dat1 (F := Ideal) V c).flushed 3 t
      = ((cfg1.win 3).blk t).view.read (Elt Ideal) (Cert.Gcn.dense (F := Ideal) (V c main_v48) (V c main_arg5)) := by
  show (cfg1.win 3).cut (grid1.coords t) ((dat1 V c).after 3 t) = _
  rw [after1_3]
  unfold out1_3
  rw [View.canon_unit_zero zeros2]
  simp only [View.ld_unit_zero (S := S5000x128) zeros2, View.ld_unit_zero (S := S128x128) zeros2,
    View.ld_unit_zero (S := S128) zeros1]
  show (k1_pay1 (F := Ideal) (iblk1 V c 0 t) (iblk1 V c 1 t) (iblk1 V c 2 t) : S5000x128.Idx → EReal)
    = fun j => Cert.Gcn.dense (F := Ideal) (V c main_v48) (V c main_arg5) (((cfg1.win 3).blk t).view.emb j)
  funext j
  obtain ⟨p, q, rfl⟩ : ∃ (p : Fin 5000) (q : Fin 128), j = ix2 p q := ⟨j 0, j 1, eq_ix2 j⟩
  obtain ⟨-, -, -, -, -, e0, e1⟩ := blockIndex1 t
  have hN : cfg1.N = 10 := N_1
  have ht : t.val < 10 := hN ▸ t.isLt
  have hp : p.val < 5000 := p.isLt
  have e : ((cfg1.win 3).blk t).view.emb (ix2 p q) = ix2 (⟨t.val * 5000 + p.val, by omega⟩ : Fin 50000) q :=
    funext fun a => Fin.ext (by
      match a with
      | ⟨0, _⟩ => show win1_3.index t (0 : Fin 2) * 5000 + 1 * p.val = t.val * 5000 + p.val; rw [e0]; omega
      | ⟨1, _⟩ => show win1_3.index t (1 : Fin 2) * 128 + 1 * q.val = q.val; rw [e1]; omega)
  refine (secondBlock_entry _ _ _ (V c main_v48) (V c main_arg5) p q ⟨t.val * 5000 + p.val, by omega⟩
    (fun k => rows1 V c t p k _ rfl) (fun k => weights1 V c t k q) ?_).trans (congrArg _ e.symm)
  rw [bias1, hb]
  exact Ideal.ofBits_zero_f32

/-- Row r lies in the block of step r / 5000. -/
theorem rowCovered1 (i : S50000x128.Idx) :
    ∃ t : Fin cfg1.N, (cfg1.win 3).flush t = true ∧ i ∈ ((cfg1.win 3).blk t).view.set := by
  have hN : cfg1.N = 10 := N_1
  have hi0 : (i 0).val < 50000 := (i 0).isLt
  have hi1 : (i 1).val < 128 := (i 1).isLt
  obtain ⟨t, ht⟩ : ∃ t : Fin cfg1.N, t.val = (i 0).val / 5000 := ⟨⟨(i 0).val / 5000, by rw [hN]; omega⟩, rfl⟩
  obtain ⟨-, -, -, -, -, e0, e1⟩ := blockIndex1 t
  refine ⟨t, flush1_3 t, ?_⟩
  show i ∈ ((View.whole main_v50).slice (win1_3.rect t)).set
  rw [View.set_slice_whole, Rect.mem_set_unit]
  intro a
  match a with
  | ⟨0, _⟩ =>
    show win1_3.index t (0 : Fin 2) * 5000 ≤ (i 0).val ∧ (i 0).val < win1_3.index t (0 : Fin 2) * 5000 + 5000
    rw [e0, ht]; omega
  | ⟨1, _⟩ =>
    show win1_3.index t (1 : Fin 2) * 128 ≤ (i 1).val ∧ (i 1).val < win1_3.index t (1 : Fin 2) * 128 + 128
    rw [e1]; omega

/-- The second product's output array is the product of the first layer's result by the second weight matrix. -/
theorem region1_array (hb : V c main_v49 = broadcastInDim S128 ![] bcast_S_S128 (constant (F := Ideal) S_ .f32 0x00000000#32)) :
    (dat1 (F := Ideal) V c).arrAt 3 cfg1.N = Cert.Gcn.dense (F := Ideal) (V c main_v48) (V c main_arg5) :=
  (dat1 (F := Ideal) V c).arrAt_eq_of_cover 3 _ (fun t _ => written1 V c hb t) (rowCovered1)

end Cert.KernelIdeal.DenseBlocks

end
-- ==== Proof.DenseLast.lean ====
/-
  The last dense product as one array.  It is computed in one step: the one block of each operand is the whole
  operand, and the one block of the output is the whole output.  Entry (p, q) of the output is the sum over k of
  x(p, k) · w(k, q) plus the bias entry b(q): the product of the two matrices plus the bias row.
-/
import proofs.«117734_j66958540144770_1_alg».proof.Proof.Gen.KernelIdeal.Frame
import proofs.«117734_j66958540144770_1_alg».proof.Proof.Spec
import proofs.«117734_j66958540144770_1_alg».proof.Proof.DensePayload

set_option maxRecDepth 16384

noncomputable section

namespace Cert.KernelIdeal.DenseBlocks

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b)) (c : Dev nD)

/-- The block indices of the four operands at the one step: all zero. -/
theorem blockIndex2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0 :=
  (by decide +kernel : ∀ t : Fin grid2.N, _)

/-- The left operand's block is the whole 512 × 128 matrix. -/
theorem rows2 (t : Fin cfg2.N) (p : Fin 512) (k : Fin 128) :
    (iblk2 V c 0 t : FVec Ideal S512x128 .f32) (ix2 p k) = (V c main_v78 : FVec Ideal S512x128 .f32) (ix2 p k) := by
  obtain ⟨e0, e1, -⟩ := blockIndex2 t
  unfold iblk2
  rw [View.read_apply]
  show V c main_v78 _ = V c main_v78 _
  refine congrArg (V c main_v78) (funext fun a => Fin.ext ?_)
  match a with
  | ⟨0, _⟩ => show win2_0.index t (0 : Fin 2) * 512 + 1 * p.val = p.val; rw [e0]; omega
  | ⟨1, _⟩ => show win2_0.index t (1 : Fin 2) * 128 + 1 * k.val = k.val; rw [e1]; omega

/-- The weights' block is the whole 128 × 138 matrix. -/
theorem weights2 (t : Fin cfg2.N) (k : Fin 128) (q : Fin 138) :
    (iblk2 V c 1 t : FVec Ideal S128x138 .f32) (ix2 k q) = (V c main_arg7 : FVec Ideal S128x138 .f32) (ix2 k q) := by
  obtain ⟨-, -, e0, e1, -⟩ := blockIndex2 t
  unfold iblk2
  rw [View.read_apply]
  show V c main_arg7 _ = V c main_arg7 _
  refine congrArg (V c main_arg7) (funext fun a => Fin.ext ?_)
  match a with
  | ⟨0, _⟩ => show win2_1.index t (0 : Fin 2) * 128 + 1 * k.val = k.val; rw [e0]; omega
  | ⟨1, _⟩ => show win2_1.index t (1 : Fin 2) * 138 + 1 * q.val = q.val; rw [e1]; omega

/-- The bias block is the whole bias row. -/
theorem bias2 (t : Fin cfg2.N) (q : Fin 138) :
    (iblk2 V c 2 t : FVec Ideal S138 .f32) (ix1 q) = (V c main_arg8 : FVec Ideal S138 .f32) (ix1 q) := by
  obtain ⟨-, -, -, -, e0, -⟩ := blockIndex2 t
  unfold iblk2
  rw [View.read_apply]
  show V c main_arg8 _ = V c main_arg8 _
  refine congrArg (V c main_arg8) (funext fun a => Fin.ext ?_)
  match a with
  | ⟨0, _⟩ => show win2_2.index t (0 : Fin 1) * 138 + 1 * q.val = q.val; rw [e0]; omega

/-- What the one step writes back is the product of the whole matrices plus the bias row. -/
theorem written2 (t : Fin cfg2.N) :
    (dat2 (F := Ideal) V c).flushed 3 t
      = ((cfg2.win 3).blk t).view.read (Elt Ideal)
          (Cert.Gcn.readout (F := Ideal) (V c main_v78) (V c main_arg7) (V c main_arg8)) := by
  show (cfg2.win 3).cut (grid2.coords t) ((dat2 V c).after 3 t) = _
  rw [after2_3]
  unfold out2_3
  rw [View.canon_unit_zero zeros2]
  simp only [View.ld_unit_zero (S := S512x128) zeros2, View.ld_unit_zero (S := S128x138) zeros2,
    View.ld_unit_zero (S := S138) zeros1]
  show (k2_pay1 (F := Ideal) (iblk2 V c 0 t) (iblk2 V c 1 t) (iblk2 V c 2 t) : S512x138.Idx → EReal)
    = fun j => Cert.Gcn.readout (F := Ideal) (V c main_v78) (V c main_arg7) (V c main_arg8)
        (((cfg2.win 3).blk t).view.emb j)
  funext j
  obtain ⟨p, q, rfl⟩ : ∃ (p : Fin 512) (q : Fin 138), j = ix2 p q := ⟨j 0, j 1, eq_ix2 j⟩
  obtain ⟨-, -, -, -, -, e0, e1⟩ := blockIndex2 t
  have e : ((cfg2.win 3).blk t).view.emb (ix2 p q) = ix2 p q :=
    funext fun a => Fin.ext (by
      match a with
      | ⟨0, _⟩ => show win2_3.index t (0 : Fin 2) * 512 + 1 * p.val = p.val; rw [e0]; omega
      | ⟨1, _⟩ => show win2_3.index t (1 : Fin 2) * 138 + 1 * q.val = q.val; rw [e1]; omega)
  exact (lastBlock_entry _ _ _ (V c main_v78) (V c main_arg7) (V c main_arg8) p q
    (fun k => rows2 V c t p k) (fun k => weights2 V c t k q) (bias2 V c t q)).trans (congrArg _ e.symm)

/-- Every entry lies in the one step's block. -/
theorem entryCovered2 (i : S512x138.Idx) :
    ∃ t : Fin cfg2.N, (cfg2.win 3).flush t = true ∧ i ∈ ((cfg2.win 3).blk t).view.set := by
  have hi0 : (i 0).val < 512 := (i 0).isLt
  have hi1 : (i 1).val < 138 := (i 1).isLt
  obtain ⟨-, -, -, -, -, e0, e1⟩ := blockIndex2 t2_0
  refine ⟨t2_0, flush2_3 t2_0, ?_⟩
  show i ∈ ((View.whole main_v79).slice (win2_3.rect t2_0)).set
  rw [View.set_slice_whole, Rect.mem_set_unit]
  intro a
  match a with
  | ⟨0, _⟩ =>
    show win2_3.index t2_0 (0 : Fin 2) * 512 ≤ (i 0).val ∧ (i 0).val < win2_3.index t2_0 (0 : Fin 2) * 512 + 512
    rw [e0]; omega
  | ⟨1, _⟩ =>
    show win2_3.index t2_0 (1 : Fin 2) * 138 ≤ (i 1).val ∧ (i 1).val < win2_3.index t2_0 (1 : Fin 2) * 138 + 138
    rw [e1]; omega

/-- The last product's output array is the product of the pooled rows by the last weight matrix, plus the bias row. -/
theorem region2_array :
    (dat2 (F := Ideal) V c).arrAt 3 cfg2.N
      = Cert.Gcn.readout (F := Ideal) (V c main_v78) (V c main_arg7) (V c main_arg8) :=
  (dat2 (F := Ideal) V c).arrAt_eq_of_cover 3 _ (fun t _ => written2 V c t) (entryCovered2)

end Cert.KernelIdeal.DenseBlocks

end
-- ==== Proof.RefOps.lean ====
/-
  The reference program's straight line of 107 array operations as a list, cut into four consecutive stretches
  (pair lists and weights; first layer; second layer; mean and read-out), a called function's operations standing
  in its call's place over that call's buffers.  The program is this list run in order; every operation touches
  TensorCore buffers only; nothing in the signature is scoped.
-/
import proofs.«117734_j66958540144770_1_alg».proof.Proof.Spec
import proofs.«117734_j66958540144770_1_alg».proof.Proof.LibStretch
import proofs.«117734_j66958540144770_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The pair lists and the pair weights: the operations through the product of the two end points' inverse square root degrees. -/
abbrev ops0 : List (HloOp τ sig (Elt F)) :=
  [ StableHlo.nullary main_v0 (iotaInDim S50000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    StableHlo.nullary main_cst (constant S_ .f32 0x3F800000#32),
    StableHlo.unary main_cst main_v7 (broadcastInDim S1650000 ![] bcast_S_S1650000 : (⟨S_, .f32⟩ : BufTy).Contents (Elt F) → (⟨S1650000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S1650000x1 ![0] bcast_S1650000_S1650000x1_0 : (⟨S1650000, .i32⟩ : BufTy).Contents (Elt F) → (⟨S1650000x1, .i32⟩ : BufTy).Contents (Elt F)),
    StableHlo.ternary main_v8 main_v9 main_v7 main_v10 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    StableHlo.nullary main_c (constantI S_ 32 0#32),
    StableHlo.unary main_c main_v15 (broadcastInDim S1650000 ![] bcast_S_S1650000 : (⟨S_, .i32⟩ : BufTy).Contents (Elt F) → (⟨S1650000, .i32⟩ : BufTy).Contents (Elt F)),
    StableHlo.binary main_v3 main_v15 main_v16 (cmpi .slt : (⟨S1650000, .i32⟩ : BufTy).Contents (Elt F) → (⟨S1650000, .i32⟩ : BufTy).Contents (Elt F) → (⟨S1650000, .i1⟩ : BufTy).Contents (Elt F)),
    StableHlo.nullary main_c_3 (constantI S_ 32 50000#32),
    StableHlo.unary main_c_3 main_v17 (broadcastInDim S1650000 ![] bcast_S_S1650000 : (⟨S_, .i32⟩ : BufTy).Contents (Elt F) → (⟨S1650000, .i32⟩ : BufTy).Contents (Elt F)),
    StableHlo.binary main_v3 main_v17 main_v18 (addi : (⟨S1650000, .i32⟩ : BufTy).Contents (Elt F) → (⟨S1650000, .i32⟩ : BufTy).Contents (Elt F) → (⟨S1650000, .i32⟩ : BufTy).Contents (Elt F)),
    StableHlo.ternary main_v16 main_v18 main_v3 main_v19 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v19 main_v20 (broadcastInDim S1650000x1 ![0] bcast_S1650000_S1650000x1_0 : (⟨S1650000, .i32⟩ : BufTy).Contents (Elt F) → (⟨S1650000x1, .i32⟩ : BufTy).Contents (Elt F)),
    StableHlo.binary main_v14 main_v20 main_v21 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.nullary main_c_4 (constantI S_ 32 0#32),
    StableHlo.unary main_c_4 main_v22 (broadcastInDim S1650000 ![] bcast_S_S1650000 : (⟨S_, .i32⟩ : BufTy).Contents (Elt F) → (⟨S1650000, .i32⟩ : BufTy).Contents (Elt F)),
    StableHlo.binary main_v6 main_v22 main_v23 (cmpi .slt : (⟨S1650000, .i32⟩ : BufTy).Contents (Elt F) → (⟨S1650000, .i32⟩ : BufTy).Contents (Elt F) → (⟨S1650000, .i1⟩ : BufTy).Contents (Elt F)),
    StableHlo.nullary main_c_5 (constantI S_ 32 50000#32),
    StableHlo.unary main_c_5 main_v24 (broadcastInDim S1650000 ![] bcast_S_S1650000 : (⟨S_, .i32⟩ : BufTy).Contents (Elt F) → (⟨S1650000, .i32⟩ : BufTy).Contents (Elt F)),
    StableHlo.binary main_v6 main_v24 main_v25 (addi : (⟨S1650000, .i32⟩ : BufTy).Contents (Elt F) → (⟨S1650000, .i32⟩ : BufTy).Contents (Elt F) → (⟨S1650000, .i32⟩ : BufTy).Contents (Elt F)),
    StableHlo.ternary main_v23 main_v25 main_v6 main_v26 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v26 main_v27 (broadcastInDim S1650000x1 ![0] bcast_S1650000_S1650000x1_0 : (⟨S1650000, .i32⟩ : BufTy).Contents (Elt F) → (⟨S1650000x1, .i32⟩ : BufTy).Contents (Elt F)),
    StableHlo.binary main_v14 main_v27 main_v28 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.binary main_v21 main_v28 main_v29 (mulf : (⟨S1650000, .f32⟩ : BufTy).Contents (Elt F) → (⟨S1650000, .f32⟩ : BufTy).Contents (Elt F) → (⟨S1650000, .f32⟩ : BufTy).Contents (Elt F)) ]

/-- The first layer: the dense product with the first weight matrix through the clamp below at zero. -/
abbrev ops1 : List (HloOp τ sig (Elt F)) :=
  [ StableHlo.binary main_arg0 main_arg3 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_6 (constantI S_ 32 0#32),
    StableHlo.unary main_c_6 main_v31 (broadcastInDim S1650000 ![] bcast_S_S1650000 : (⟨S_, .i32⟩ : BufTy).Contents (Elt F) → (⟨S1650000, .i32⟩ : BufTy).Contents (Elt F)),
    StableHlo.binary main_v3 main_v31 main_v32 (cmpi .slt : (⟨S1650000, .i32⟩ : BufTy).Contents (Elt F) → (⟨S1650000, .i32⟩ : BufTy).Contents (Elt F) → (⟨S1650000, .i1⟩ : BufTy).Contents (Elt F)),
    StableHlo.nullary main_c_7 (constantI S_ 32 50000#32),
    StableHlo.unary main_c_7 main_v33 (broadcastInDim S1650000 ![] bcast_S_S1650000 : (⟨S_, .i32⟩ : BufTy).Contents (Elt F) → (⟨S1650000, .i32⟩ : BufTy).Contents (Elt F)),
    StableHlo.binary main_v3 main_v33 main_v34 (addi : (⟨S1650000, .i32⟩ : BufTy).Contents (Elt F) → (⟨S1650000, .i32⟩ : BufTy).Contents (Elt F) → (⟨S1650000, .i32⟩ : BufTy).Contents (Elt F)),
    StableHlo.ternary main_v32 main_v34 main_v3 main_v35 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v35 main_v36 (broadcastInDim S1650000x1 ![0] bcast_S1650000_S1650000x1_0 : (⟨S1650000, .i32⟩ : BufTy).Contents (Elt F) → (⟨S1650000x1, .i32⟩ : BufTy).Contents (Elt F)),
    StableHlo.binary main_v30 main_v36 main_v37 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    StableHlo.unary main_v29 main_v38 (broadcastInDim S1650000x1 ![0] bcast_S1650000_S1650000x1_0 : (⟨S1650000, .f32⟩ : BufTy).Contents (Elt F) → (⟨S1650000x1, .f32⟩ : BufTy).Contents (Elt F)),
    StableHlo.unary main_v38 main_v39 (broadcastInDim S1650000x128 ![0, 1] bcast_S1650000x1_S1650000x128_0_1 : (⟨S1650000x1, .f32⟩ : BufTy).Contents (Elt F) → (⟨S1650000x128, .f32⟩ : BufTy).Contents (Elt F)),
    StableHlo.binary main_v37 main_v39 main_v40 (mulf : (⟨S1650000x128, .f32⟩ : BufTy).Contents (Elt F) → (⟨S1650000x128, .f32⟩ : BufTy).Contents (Elt F) → (⟨S1650000x128, .f32⟩ : BufTy).Contents (Elt F)),
    StableHlo.nullary main_cst_8 (constant S_ .f32 0x00000000#32),
    StableHlo.unary main_cst_8 main_v41 (broadcastInDim S50000x128 ![] bcast_S_S50000x128 : (⟨S_, .f32⟩ : BufTy).Contents (Elt F) → (⟨S50000x128, .f32⟩ : BufTy).Contents (Elt F)),
    StableHlo.unary main_v6 main_v42 (broadcastInDim S1650000x1 ![0] bcast_S1650000_S1650000x1_0 : (⟨S1650000, .i32⟩ : BufTy).Contents (Elt F) → (⟨S1650000x1, .i32⟩ : BufTy).Contents (Elt F)),
    StableHlo.ternary main_v41 main_v42 main_v40 main_v43 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    StableHlo.unary main_arg4 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

/-- The second layer: the dense product with the second weight matrix through the clamp below at zero. -/
abbrev ops2 : List (HloOp τ sig (Elt F)) :=
  [ StableHlo.binary main_v47 main_arg5 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_9 (constantI S_ 32 0#32),
    StableHlo.unary main_c_9 main_v49 (broadcastInDim S1650000 ![] bcast_S_S1650000 : (⟨S_, .i32⟩ : BufTy).Contents (Elt F) → (⟨S1650000, .i32⟩ : BufTy).Contents (Elt F)),
    StableHlo.binary main_v3 main_v49 main_v50 (cmpi .slt : (⟨S1650000, .i32⟩ : BufTy).Contents (Elt F) → (⟨S1650000, .i32⟩ : BufTy).Contents (Elt F) → (⟨S1650000, .i1⟩ : BufTy).Contents (Elt F)),
    StableHlo.nullary main_c_10 (constantI S_ 32 50000#32),
    StableHlo.unary main_c_10 main_v51 (broadcastInDim S1650000 ![] bcast_S_S1650000 : (⟨S_, .i32⟩ : BufTy).Contents (Elt F) → (⟨S1650000, .i32⟩ : BufTy).Contents (Elt F)),
    StableHlo.binary main_v3 main_v51 main_v52 (addi : (⟨S1650000, .i32⟩ : BufTy).Contents (Elt F) → (⟨S1650000, .i32⟩ : BufTy).Contents (Elt F) → (⟨S1650000, .i32⟩ : BufTy).Contents (Elt F)),
    StableHlo.ternary main_v50 main_v52 main_v3 main_v53 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v53 main_v54 (broadcastInDim S1650000x1 ![0] bcast_S1650000_S1650000x1_0 : (⟨S1650000, .i32⟩ : BufTy).Contents (Elt F) → (⟨S1650000x1, .i32⟩ : BufTy).Contents (Elt F)),
    StableHlo.binary main_v48 main_v54 main_v55 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    StableHlo.unary main_v29 main_v56 (broadcastInDim S1650000x1 ![0] bcast_S1650000_S1650000x1_0 : (⟨S1650000, .f32⟩ : BufTy).Contents (Elt F) → (⟨S1650000x1, .f32⟩ : BufTy).Contents (Elt F)),
    StableHlo.unary main_v56 main_v57 (broadcastInDim S1650000x128 ![0, 1] bcast_S1650000x1_S1650000x128_0_1 : (⟨S1650000x1, .f32⟩ : BufTy).Contents (Elt F) → (⟨S1650000x128, .f32⟩ : BufTy).Contents (Elt F)),
    StableHlo.binary main_v55 main_v57 main_v58 (mulf : (⟨S1650000x128, .f32⟩ : BufTy).Contents (Elt F) → (⟨S1650000x128, .f32⟩ : BufTy).Contents (Elt F) → (⟨S1650000x128, .f32⟩ : BufTy).Contents (Elt F)),
    StableHlo.nullary main_cst_11 (constant S_ .f32 0x00000000#32),
    StableHlo.unary main_cst_11 main_v59 (broadcastInDim S50000x128 ![] bcast_S_S50000x128 : (⟨S_, .f32⟩ : BufTy).Contents (Elt F) → (⟨S50000x128, .f32⟩ : BufTy).Contents (Elt F)),
    StableHlo.unary main_v6 main_v60 (broadcastInDim S1650000x1 ![0] bcast_S1650000_S1650000x1_0 : (⟨S1650000, .i32⟩ : BufTy).Contents (Elt F) → (⟨S1650000x1, .i32⟩ : BufTy).Contents (Elt F)),
    StableHlo.ternary main_v59 main_v60 main_v58 main_v61 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    StableHlo.unary main_arg6 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v61 main_v63 main_v64 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v64) (TRef.of (T := ⟨S50000x128, .f32⟩) main_call2_v0) (TRef.of (T := ⟨S50000x128, .f32⟩) main_v65) maximumf ]

/-- The mean over each graph and the read-out. -/
abbrev ops3 : List (HloOp τ sig (Elt F)) :=
  [ StableHlo.nullary main_cst_12 (constant S_ .f32 0x3F800000#32),
    StableHlo.unary main_cst_12 main_v66 (broadcastInDim S50000 ![] bcast_S_S50000 : (⟨S_, .f32⟩ : BufTy).Contents (Elt F) → (⟨S50000, .f32⟩ : BufTy).Contents (Elt F)),
    StableHlo.nullary main_cst_13 (constant S_ .f32 0x00000000#32),
    StableHlo.unary main_cst_13 main_v67 (broadcastInDim S512 ![] bcast_S_S512 : (⟨S_, .f32⟩ : BufTy).Contents (Elt F) → (⟨S512, .f32⟩ : BufTy).Contents (Elt F)),
    StableHlo.unary main_arg2 main_v68 (broadcastInDim S50000x1 ![0] bcast_S50000_S50000x1_0 : (⟨S50000, .i32⟩ : BufTy).Contents (Elt F) → (⟨S50000x1, .i32⟩ : BufTy).Contents (Elt F)),
    StableHlo.ternary main_v67 main_v68 main_v66 main_v69 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    StableHlo.nullary main_cst_14 (constant S_ .f32 0x00000000#32),
    StableHlo.unary main_cst_14 main_v70 (broadcastInDim S512x128 ![] bcast_S_S512x128 : (⟨S_, .f32⟩ : BufTy).Contents (Elt F) → (⟨S512x128, .f32⟩ : BufTy).Contents (Elt F)),
    StableHlo.unary main_arg2 main_v71 (broadcastInDim S50000x1 ![0] bcast_S50000_S50000x1_0 : (⟨S50000, .i32⟩ : BufTy).Contents (Elt F) → (⟨S50000x1, .i32⟩ : BufTy).Contents (Elt F)),
    StableHlo.ternary main_v70 main_v71 main_v65 main_v72 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.nullary main_cst_15 (constant S_ .f32 0x3F800000#32),
    TRef.unary (TRef.of (T := ⟨S_, .f32⟩) main_cst_15) (TRef.of (T := ⟨S_, .f32⟩) main_call3_v0) id,
    TRef.unary (TRef.of (T := ⟨S_, .f32⟩) main_call3_v0) (TRef.of (T := ⟨S512, .f32⟩) main_call3_v1) (broadcastInDim S512 ![] bcast_S_S512),
    TRef.binary (TRef.of (T := ⟨S512, .f32⟩) main_call3_v1) (TRef.of (T := ⟨S512, .f32⟩) main_v69) (TRef.of (T := ⟨S512, .f32⟩) main_v73) maximumf,
    StableHlo.unary main_v73 main_v74 (broadcastInDim S512x1 ![0] bcast_S512_S512x1_0 : (⟨S512, .f32⟩ : BufTy).Contents (Elt F) → (⟨S512x1, .f32⟩ : BufTy).Contents (Elt F)),
    StableHlo.unary main_v74 main_v75 (broadcastInDim S512x128 ![0, 1] bcast_S512x1_S512x128_0_1 : (⟨S512x1, .f32⟩ : BufTy).Contents (Elt F) → (⟨S512x128, .f32⟩ : BufTy).Contents (Elt F)),
    StableHlo.binary main_v72 main_v75 main_v76 (Host.divf : (⟨S512x128, .f32⟩ : BufTy).Contents (Elt F) → (⟨S512x128, .f32⟩ : BufTy).Contents (Elt F) → (⟨S512x128, .f32⟩ : BufTy).Contents (Elt F)),
    StableHlo.binary main_v76 main_arg7 main_v77 ((fun l r => Host.dotGeneral dot_S512x128_S128x138_S512x138_1_0_0_1_n_n none l r) : (⟨S512x128, .f32⟩ : BufTy).Contents (Elt F) → (⟨S128x138, .f32⟩ : BufTy).Contents (Elt F) → (⟨S512x138, .f32⟩ : BufTy).Contents (Elt F)),
    StableHlo.unary main_arg8 main_v78 (broadcastInDim S1x138 ![1] bcast_S138_S1x138_1 : (⟨S138, .f32⟩ : BufTy).Contents (Elt F) → (⟨S1x138, .f32⟩ : BufTy).Contents (Elt F)),
    StableHlo.unary main_v78 main_v79 (broadcastInDim S512x138 ![0, 1] bcast_S1x138_S512x138_0_1 : (⟨S1x138, .f32⟩ : BufTy).Contents (Elt F) → (⟨S512x138, .f32⟩ : BufTy).Contents (Elt F)),
    StableHlo.binary main_v77 main_v79 main_v80 (addf : (⟨S512x138, .f32⟩ : BufTy).Contents (Elt F) → (⟨S512x138, .f32⟩ : BufTy).Contents (Elt F) → (⟨S512x138, .f32⟩ : BufTy).Contents (Elt F)) ]

/-- The whole line: the four stretches in order. -/
abbrev ops : List (HloOp τ sig (Elt F)) := ops0 ++ (ops1 ++ (ops2 ++ ops3))

set_option maxRecDepth 8192 in
set_option maxHeartbeats 4000000 in
/-- The program is the line run in order: each called function's body unfolds to its three operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem ops1_sub : (ops1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

theorem ops2_sub : (ops2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

theorem ops3_sub : (ops3 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., unary_bufs_sub .., binary_bufs_sub ..⟩

/-- Every operation of the line touches TensorCore buffers only. -/
theorem ops_sub : (ops : List (HloOp τ sig (Elt F))).Forall fun op => op.bufs ⊆ tcRefs τ sig :=
  List.forall_iff_forall_mem.2 fun op h => by
    rcases List.mem_append.1 h with h | h
    · exact List.forall_iff_forall_mem.1 ops0_sub op h
    rcases List.mem_append.1 h with h | h
    · exact List.forall_iff_forall_mem.1 ops1_sub op h
    rcases List.mem_append.1 h with h | h
    · exact List.forall_iff_forall_mem.1 ops2_sub op h
    · exact List.forall_iff_forall_mem.1 ops3_sub op h

end Cert.ReferenceIdeal.HandRun

end
-- ==== Proof.RefStretch0.lean ====
/-
  The first stretch of the reference's line, read from arbitrary starting contents: it leaves the source list, the
  destination list and the pair weights as the named functions of the edge array, and the nine argument arrays as they were.
-/
import proofs.«117734_j66958540144770_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The source of every pair: row 0 of the edge array, then one self loop per node. -/
theorem s0_v3 (V : Valuation τ sig (Elt F)) :
    after ops0 V (Proc.devRef .tc main_v3) = Cert.Gcn.srcOf (F := F) (V (Proc.devRef .tc main_arg1)) := by
  after_results_simp
  rfl

/-- The destination of every pair: row 1 of the edge array, then one self loop per node. -/
theorem s0_v6 (V : Valuation τ sig (Elt F)) :
    after ops0 V (Proc.devRef .tc main_v6) = Cert.Gcn.dstOf (F := F) (V (Proc.devRef .tc main_arg1)) := by
  after_results_simp
  rfl

set_option maxRecDepth 8192 in
set_option maxHeartbeats 4000000 in
/-- The weight of every pair, from the degrees the destination list gives. -/
theorem s0_v29 (V : Valuation τ sig (Elt F)) :
    after ops0 V (Proc.devRef .tc main_v29)
      = Cert.Gcn.edgeWeight (F := F) (Cert.Gcn.srcOf (F := F) (V (Proc.devRef .tc main_arg1))) (Cert.Gcn.dstOf (F := F) (V (Proc.devRef .tc main_arg1))) := by
  after_results_simp
  simp only [Cert.LibStretch.ofBuf_toBuf, Cert.LibStretch.toBuf_ofBuf]
  rfl

theorem s0_arg0 (V : Valuation τ sig (Elt F)) :
    after ops0 V (Proc.devRef .tc main_arg0) = V (Proc.devRef .tc main_arg0) := by
  after_results_simp

theorem s0_arg1 (V : Valuation τ sig (Elt F)) :
    after ops0 V (Proc.devRef .tc main_arg1) = V (Proc.devRef .tc main_arg1) := by
  after_results_simp

theorem s0_arg2 (V : Valuation τ sig (Elt F)) :
    after ops0 V (Proc.devRef .tc main_arg2) = V (Proc.devRef .tc main_arg2) := by
  after_results_simp

theorem s0_arg3 (V : Valuation τ sig (Elt F)) :
    after ops0 V (Proc.devRef .tc main_arg3) = V (Proc.devRef .tc main_arg3) := by
  after_results_simp

theorem s0_arg4 (V : Valuation τ sig (Elt F)) :
    after ops0 V (Proc.devRef .tc main_arg4) = V (Proc.devRef .tc main_arg4) := by
  after_results_simp

theorem s0_arg5 (V : Valuation τ sig (Elt F)) :
    after ops0 V (Proc.devRef .tc main_arg5) = V (Proc.devRef .tc main_arg5) := by
  after_results_simp

theorem s0_arg6 (V : Valuation τ sig (Elt F)) :
    after ops0 V (Proc.devRef .tc main_arg6) = V (Proc.devRef .tc main_arg6) := by
  after_results_simp

theorem s0_arg7 (V : Valuation τ sig (Elt F)) :
    after ops0 V (Proc.devRef .tc main_arg7) = V (Proc.devRef .tc main_arg7) := by
  after_results_simp

theorem s0_arg8 (V : Valuation τ sig (Elt F)) :
    after ops0 V (Proc.devRef .tc main_arg8) = V (Proc.devRef .tc main_arg8) := by
  after_results_simp

end Cert.ReferenceIdeal.HandRun

end
-- ==== Proof.RefStretch1.lean ====
/-
  The second stretch, read from arbitrary starting contents: the first layer.  It leaves the layer's result as the named
  function of the features, the first weight matrix and bias, and the pair lists and weights it finds; those three and
  the nine argument arrays stay as they were.
-/
import proofs.«117734_j66958540144770_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The first layer's result. -/
theorem s1_v47 (V : Valuation τ sig (Elt F)) :
    after ops1 V (Proc.devRef .tc main_v47)
      = Cert.Gcn.propagate (F := F) (Cert.Gcn.dense (F := F) (V (Proc.devRef .tc main_arg0)) (V (Proc.devRef .tc main_arg3)))
          (V (Proc.devRef .tc main_v3)) (V (Proc.devRef .tc main_v6)) (V (Proc.devRef .tc main_v29)) (V (Proc.devRef .tc main_arg4)) := by
  after_results_simp
  simp only [Cert.LibStretch.ofBuf_toBuf, Cert.LibStretch.toBuf_ofBuf]
  rfl

theorem s1_v3 (V : Valuation τ sig (Elt F)) :
    after ops1 V (Proc.devRef .tc main_v3) = V (Proc.devRef .tc main_v3) := by
  after_results_simp

theorem s1_v6 (V : Valuation τ sig (Elt F)) :
    after ops1 V (Proc.devRef .tc main_v6) = V (Proc.devRef .tc main_v6) := by
  after_results_simp

theorem s1_v29 (V : Valuation τ sig (Elt F)) :
    after ops1 V (Proc.devRef .tc main_v29) = V (Proc.devRef .tc main_v29) := by
  after_results_simp

theorem s1_arg0 (V : Valuation τ sig (Elt F)) :
    after ops1 V (Proc.devRef .tc main_arg0) = V (Proc.devRef .tc main_arg0) := by
  after_results_simp

theorem s1_arg1 (V : Valuation τ sig (Elt F)) :
    after ops1 V (Proc.devRef .tc main_arg1) = V (Proc.devRef .tc main_arg1) := by
  after_results_simp

theorem s1_arg2 (V : Valuation τ sig (Elt F)) :
    after ops1 V (Proc.devRef .tc main_arg2) = V (Proc.devRef .tc main_arg2) := by
  after_results_simp

theorem s1_arg3 (V : Valuation τ sig (Elt F)) :
    after ops1 V (Proc.devRef .tc main_arg3) = V (Proc.devRef .tc main_arg3) := by
  after_results_simp

theorem s1_arg4 (V : Valuation τ sig (Elt F)) :
    after ops1 V (Proc.devRef .tc main_arg4) = V (Proc.devRef .tc main_arg4) := by
  after_results_simp

theorem s1_arg5 (V : Valuation τ sig (Elt F)) :
    after ops1 V (Proc.devRef .tc main_arg5) = V (Proc.devRef .tc main_arg5) := by
  after_results_simp

theorem s1_arg6 (V : Valuation τ sig (Elt F)) :
    after ops1 V (Proc.devRef .tc main_arg6) = V (Proc.devRef .tc main_arg6) := by
  after_results_simp

theorem s1_arg7 (V : Valuation τ sig (Elt F)) :
    after ops1 V (Proc.devRef .tc main_arg7) = V (Proc.devRef .tc main_arg7) := by
  after_results_simp

theorem s1_arg8 (V : Valuation τ sig (Elt F)) :
    after ops1 V (Proc.devRef .tc main_arg8) = V (Proc.devRef .tc main_arg8) := by
  after_results_simp

end Cert.ReferenceIdeal.HandRun

end
-- ==== Proof.RefStretch2.lean ====
/-
  The third stretch, read from arbitrary starting contents: the second layer, from the first layer's result, the second
  weight matrix and bias, and the pair lists and weights it finds; the nine argument arrays stay as they were.
-/
import proofs.«117734_j66958540144770_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The second layer's result. -/
theorem s2_v65 (V : Valuation τ sig (Elt F)) :
    after ops2 V (Proc.devRef .tc main_v65)
      = Cert.Gcn.propagate (F := F) (Cert.Gcn.dense (F := F) (V (Proc.devRef .tc main_v47)) (V (Proc.devRef .tc main_arg5)))
          (V (Proc.devRef .tc main_v3)) (V (Proc.devRef .tc main_v6)) (V (Proc.devRef .tc main_v29)) (V (Proc.devRef .tc main_arg6)) := by
  after_results_simp
  simp only [Cert.LibStretch.ofBuf_toBuf, Cert.LibStretch.toBuf_ofBuf]
  rfl

theorem s2_arg0 (V : Valuation τ sig (Elt F)) :
    after ops2 V (Proc.devRef .tc main_arg0) = V (Proc.devRef .tc main_arg0) := by
  after_results_simp

theorem s2_arg1 (V : Valuation τ sig (Elt F)) :
    after ops2 V (Proc.devRef .tc main_arg1) = V (Proc.devRef .tc main_arg1) := by
  after_results_simp

theorem s2_arg2 (V : Valuation τ sig (Elt F)) :
    after ops2 V (Proc.devRef .tc main_arg2) = V (Proc.devRef .tc main_arg2) := by
  after_results_simp

theorem s2_arg3 (V : Valuation τ sig (Elt F)) :
    after ops2 V (Proc.devRef .tc main_arg3) = V (Proc.devRef .tc main_arg3) := by
  after_results_simp

theorem s2_arg4 (V : Valuation τ sig (Elt F)) :
    after ops2 V (Proc.devRef .tc main_arg4) = V (Proc.devRef .tc main_arg4) := by
  after_results_simp

theorem s2_arg5 (V : Valuation τ sig (Elt F)) :
    after ops2 V (Proc.devRef .tc main_arg5) = V (Proc.devRef .tc main_arg5) := by
  after_results_simp

theorem s2_arg6 (V : Valuation τ sig (Elt F)) :
    after ops2 V (Proc.devRef .tc main_arg6) = V (Proc.devRef .tc main_arg6) := by
  after_results_simp

theorem s2_arg7 (V : Valuation τ sig (Elt F)) :
    after ops2 V (Proc.devRef .tc main_arg7) = V (Proc.devRef .tc main_arg7) := by
  after_results_simp

theorem s2_arg8 (V : Valuation τ sig (Elt F)) :
    after ops2 V (Proc.devRef .tc main_arg8) = V (Proc.devRef .tc main_arg8) := by
  after_results_simp

end Cert.ReferenceIdeal.HandRun

end
-- ==== Proof.RefStretch3.lean ====
/-
  The last stretch, read from arbitrary starting contents: the mean of the second layer's rows within each graph and the
  read-out; the nine argument arrays stay as they were.
-/
import proofs.«117734_j66958540144770_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The result: the read-out of the per-graph means. -/
theorem s3_v80 (V : Valuation τ sig (Elt F)) :
    after ops3 V (Proc.devRef .tc main_v80)
      = Cert.Gcn.readout (F := F) (Cert.Gcn.meanPool (F := F) (V (Proc.devRef .tc main_v65)) (V (Proc.devRef .tc main_arg2)))
          (V (Proc.devRef .tc main_arg7)) (V (Proc.devRef .tc main_arg8)) := by
  after_results_simp
  simp only [Cert.LibStretch.ofBuf_toBuf, Cert.LibStretch.toBuf_ofBuf]
  rfl

theorem s3_arg0 (V : Valuation τ sig (Elt F)) :
    after ops3 V (Proc.devRef .tc main_arg0) = V (Proc.devRef .tc main_arg0) := by
  after_results_simp

theorem s3_arg1 (V : Valuation τ sig (Elt F)) :
    after ops3 V (Proc.devRef .tc main_arg1) = V (Proc.devRef .tc main_arg1) := by
  after_results_simp

theorem s3_arg2 (V : Valuation τ sig (Elt F)) :
    after ops3 V (Proc.devRef .tc main_arg2) = V (Proc.devRef .tc main_arg2) := by
  after_results_simp

theorem s3_arg3 (V : Valuation τ sig (Elt F)) :
    after ops3 V (Proc.devRef .tc main_arg3) = V (Proc.devRef .tc main_arg3) := by
  after_results_simp

theorem s3_arg4 (V : Valuation τ sig (Elt F)) :
    after ops3 V (Proc.devRef .tc main_arg4) = V (Proc.devRef .tc main_arg4) := by
  after_results_simp

theorem s3_arg5 (V : Valuation τ sig (Elt F)) :
    after ops3 V (Proc.devRef .tc main_arg5) = V (Proc.devRef .tc main_arg5) := by
  after_results_simp

theorem s3_arg6 (V : Valuation τ sig (Elt F)) :
    after ops3 V (Proc.devRef .tc main_arg6) = V (Proc.devRef .tc main_arg6) := by
  after_results_simp

theorem s3_arg7 (V : Valuation τ sig (Elt F)) :
    after ops3 V (Proc.devRef .tc main_arg7) = V (Proc.devRef .tc main_arg7) := by
  after_results_simp

theorem s3_arg8 (V : Valuation τ sig (Elt F)) :
    after ops3 V (Proc.devRef .tc main_arg8) = V (Proc.devRef .tc main_arg8) := by
  after_results_simp

end Cert.ReferenceIdeal.HandRun

end
-- ==== Proof.RefRun.lean ====
/-
  The reference program's run.  The line is read stretch by stretch: the second stretch runs from what the first leaves,
  and so on, so the result buffer ends at the network function of the argument arrays; no stretch writes an argument
  array.  Hence every execution of the program ends with its result at the network of its arguments, the arguments unchanged.
-/
import proofs.«117734_j66958540144770_1_alg».proof.Proof.Spec
import proofs.«117734_j66958540144770_1_alg».proof.Proof.LibStretch
import proofs.«117734_j66958540144770_1_alg».proof.Proof.Gen.ReferenceIdeal
import Idealize.ShloMosaic.Lib.StableHlo.Run
import proofs.«117734_j66958540144770_1_alg».proof.Proof.RefOps
import proofs.«117734_j66958540144770_1_alg».proof.Proof.RefStretch0
import proofs.«117734_j66958540144770_1_alg».proof.Proof.RefStretch1
import proofs.«117734_j66958540144770_1_alg».proof.Proof.RefStretch2
import proofs.«117734_j66958540144770_1_alg».proof.Proof.RefStretch3

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The whole line from contents `L` is the four stretches, each from what the one before leaves. -/
theorem after_ops (L : Valuation τ sig (Elt F)) :
    after ops L = after ops3 (after ops2 (after ops1 (after ops0 L))) := by
  rw [Cert.LibStretch.after_append, Cert.LibStretch.after_append, Cert.LibStretch.after_append]

/-- The result buffer after the whole line: the network of the argument arrays. -/
theorem out_eq (L : Valuation τ sig (Elt F)) :
    after ops L (Proc.devRef .tc main_v80)
      = Cert.Gcn.network (F := F) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) := by
  unfold Cert.Gcn.network
  rw [after_ops, s3_v80, s2_v65, s2_arg2, s2_arg7, s2_arg8,
    s1_v47, s1_v3, s1_v6, s1_v29, s1_arg2, s1_arg5, s1_arg6, s1_arg7, s1_arg8,
    s0_v3, s0_v6, s0_v29, s0_arg0, s0_arg2, s0_arg3, s0_arg4, s0_arg5, s0_arg6, s0_arg7, s0_arg8]

theorem arg0_eq (L : Valuation τ sig (Elt F)) : after ops L (Proc.devRef .tc main_arg0) = L (Proc.devRef .tc main_arg0) := by
  rw [after_ops, s3_arg0, s2_arg0, s1_arg0, s0_arg0]

theorem arg1_eq (L : Valuation τ sig (Elt F)) : after ops L (Proc.devRef .tc main_arg1) = L (Proc.devRef .tc main_arg1) := by
  rw [after_ops, s3_arg1, s2_arg1, s1_arg1, s0_arg1]

theorem arg2_eq (L : Valuation τ sig (Elt F)) : after ops L (Proc.devRef .tc main_arg2) = L (Proc.devRef .tc main_arg2) := by
  rw [after_ops, s3_arg2, s2_arg2, s1_arg2, s0_arg2]

theorem arg3_eq (L : Valuation τ sig (Elt F)) : after ops L (Proc.devRef .tc main_arg3) = L (Proc.devRef .tc main_arg3) := by
  rw [after_ops, s3_arg3, s2_arg3, s1_arg3, s0_arg3]

theorem arg4_eq (L : Valuation τ sig (Elt F)) : after ops L (Proc.devRef .tc main_arg4) = L (Proc.devRef .tc main_arg4) := by
  rw [after_ops, s3_arg4, s2_arg4, s1_arg4, s0_arg4]

theorem arg5_eq (L : Valuation τ sig (Elt F)) : after ops L (Proc.devRef .tc main_arg5) = L (Proc.devRef .tc main_arg5) := by
  rw [after_ops, s3_arg5, s2_arg5, s1_arg5, s0_arg5]

theorem arg6_eq (L : Valuation τ sig (Elt F)) : after ops L (Proc.devRef .tc main_arg6) = L (Proc.devRef .tc main_arg6) := by
  rw [after_ops, s3_arg6, s2_arg6, s1_arg6, s0_arg6]

theorem arg7_eq (L : Valuation τ sig (Elt F)) : after ops L (Proc.devRef .tc main_arg7) = L (Proc.devRef .tc main_arg7) := by
  rw [after_ops, s3_arg7, s2_arg7, s1_arg7, s0_arg7]

theorem arg8_eq (L : Valuation τ sig (Elt F)) : after ops L (Proc.devRef .tc main_arg8) = L (Proc.devRef .tc main_arg8) := by
  rw [after_ops, s3_arg8, s2_arg8, s1_arg8, s0_arg8]

/-- On every device, for any float values, from any memory with zero counters: every weakly fair execution of the
    program terminates with its result buffer at the network of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80) = Cert.Gcn.network (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v80).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c))⟩)
    (run_seq scopedRefs_eq scopedSems_eq defs main (fun _ => ops) main_eq (fun _ => ops_sub) m ρ)

end Cert.ReferenceIdeal.HandRun

end
-- ==== Proof.lean ====
/-
  The certificate of a two-layer graph-convolution network with a mean pool and a linear read-out: the kernel
  computes its three dense products (node features by a 128 by 128 weight matrix, twice, over ten blocks of 5000
  rows; the pooled 512 by 128 means by a 128 by 138 matrix with a bias row) as pipelined regions, with operands
  rounded to bfloat16 and, in the first two, a bias row of zeros added; the reference computes them as plain
  products.  Everything between the products — the pair lists with self loops, the degrees and pair weights, the
  rows sent along the pairs and summed, the bias rows, the clamps at zero, the graph means — is the same host
  computation in both programs.

  Over the extended reals a change of float format is the identity, a product accumulated into the zero splat is
  the plain sum of products, the row blocks of a region's output tile the whole array, and adding zero changes no
  extended real (infinite ones included), so each region leaves exactly the reference's dense product and both
  programs end at one and the same function of the arguments, the network function.  No finiteness of the
  inputs is used.  The idealization rewrote no operation, so there is nothing to preserve.
-/
import proofs.«117734_j66958540144770_1_alg».proof.Defs
import proofs.«117734_j66958540144770_1_alg».proof.Proof.Gen.Kernel
import proofs.«117734_j66958540144770_1_alg».proof.Proof.Gen.Kernel.Frame
import proofs.«117734_j66958540144770_1_alg».proof.Proof.Gen.KernelIdeal
import proofs.«117734_j66958540144770_1_alg».proof.Proof.Gen.KernelIdeal.Frame
import proofs.«117734_j66958540144770_1_alg».proof.Proof.Gen.ReferenceIdeal
import proofs.«117734_j66958540144770_1_alg».proof.Proof.Gen.Pre_finite_inputs
import proofs.«117734_j66958540144770_1_alg».proof.Proof.KernelValue
import proofs.«117734_j66958540144770_1_alg».proof.Proof.DenseFirst
import proofs.«117734_j66958540144770_1_alg».proof.Proof.DenseSecond
import proofs.«117734_j66958540144770_1_alg».proof.Proof.DenseLast
import proofs.«117734_j66958540144770_1_alg».proof.Proof.RefRun
import Idealize.ShloMosaic.Adequacy
import Idealize.ShloMosaic.Init

noncomputable section

namespace Cert.Proof

open Idealize.ShloMosaic Idealize.ShloMosaic.TcCoe Idealize.SL.Sem

/-- Each of the kernel's three regions leaves the dense product of the arrays it finds. -/
theorem regions_dense : Cert.KernelIdeal.Fold.RegionsAreDense :=
  ⟨fun V c hb => Cert.KernelIdeal.DenseBlocks.region0_array V c hb, fun V c hb => Cert.KernelIdeal.DenseBlocks.region1_array V c hb,
    fun V c => Cert.KernelIdeal.DenseBlocks.region2_array V c⟩

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealization rewrote nothing. -/
theorem preserves : Cert.preserves_Kernel_KernelIdeal := trivial

/-- Both programs end at the network function of the arguments, which agree. -/
theorem algebraic : Cert.algebraic_KernelIdeal_ReferenceIdeal := by
  intro m ρ m' ρ' _ hagree
  refine ⟨_, Cert.KernelIdeal.NetworkValue.run regions_dense m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
